-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S256x64 : Shape := ⟨2, ![256, 64]⟩
abbrev S4096x64 : Shape := ⟨2, ![4096, 64]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x64, .f32⟩
  | .hbm, ⟨11, _⟩ => ⟨S4x4096x64, .f32⟩
  | .hbm, ⟨12, _⟩ => ⟨S4x4096x64, .bf16⟩
  | .hbm, ⟨13, _⟩ => ⟨S4x4096x64, .bf16⟩
  | .hbm, ⟨14, _⟩ => ⟨S4x4096x64, .f32⟩
  | .hbm, ⟨15, _⟩ => ⟨S4x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .bf16⟩
  | .local _ .vmem, ⟨3, _⟩ => ⟨S1x4096x64, .bf16⟩
  | .local _ .vmem, ⟨4, _⟩ => ⟨S1x256x64, .f32⟩
  | .local _ .vmem, ⟨5, _⟩ => ⟨S1x256x64, .f32⟩
  | .local _ .vmem, ⟨6, _⟩ => ⟨S1x256x4096, .f32⟩
  | .local _ .vmem, ⟨7, _⟩ => ⟨S1x256x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  iota_S256x1_d0_w32 : S256x1.Iotas .tc 32 [0]
  iota_S1x4096_d1_w32 : S1x4096.Iotas .tc 32 [1]
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .bf16 = 32 ∨ (Rect.block (s := S4x4096x64) S1x4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .bf16 = 32 ∨ (Rect.block (s := S4x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S4x4096x64.size a
  hwx0_3 : ∀ i : grid0.Coords, EltTy.bits .f32 = 32 ∨ (Rect.block (s := S4x4096x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S4x4096x4096.size a
  hwx0_4 : ∀ i : grid0.Coords, EltTy.bits .f32 = 32 ∨ (Rect.block (s := S4x4096x4096) S1x256x4096.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4096 : Shape := ⟨1, ![4096]⟩
abbrev S4096x1 : Shape := ⟨2, ![4096, 1]⟩
abbrev S4096x2 : Shape := ⟨2, ![4096, 2]⟩
abbrev S4096x4096 : Shape := ⟨2, ![4096, 4096]⟩
abbrev S1x4096x4096 : Shape := ⟨3, ![1, 4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x64, .f32⟩
  | .hbm, ⟨11, _⟩ => ⟨S4x4096x64, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1, .i32⟩
  | .hbm, ⟨33, _⟩ => ⟨S4096x2, .i32⟩
  | .hbm, ⟨34, _⟩ => ⟨S_, .f32⟩
  | .hbm, ⟨35, _⟩ => ⟨S4x4096, .f32⟩
  | .hbm, ⟨36, _⟩ => ⟨S4x4096x4096, .f32⟩
  | .hbm, ⟨37, _⟩ => ⟨S_, .i1⟩
  | .hbm, ⟨38, _⟩ => ⟨S4096x4096, .i1⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .i1⟩
  | .hbm, ⟨46, _⟩ => ⟨S4096x4096, .i1⟩
  | .hbm, ⟨47, _⟩ => ⟨S4096x4096, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i1⟩
  | .hbm, ⟨53, _⟩ => ⟨S4096x4096, .i1⟩
  | .hbm, ⟨54, _⟩ => ⟨S1x4096x4096, .i1⟩
  | .hbm, ⟨55, _⟩ => ⟨S_, .f32⟩
  | .hbm, ⟨56, _⟩ => ⟨S4x4096x4096, .i1⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4x4096, .f32⟩
  | .hbm, ⟨63, _⟩ => ⟨S4x4096, .f32⟩
  | .hbm, ⟨64, _⟩ => ⟨S4x4096x1, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v25 : Ref sig .tc := ⟨.hbm, 47, rfl⟩
abbrev main_c_6 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_10 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x4096 : S_.BroadcastsInDim S4x4096x4096 (![] : Fin 0 → Fin S4x4096x4096.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4x4096 : S_.BroadcastsInDim S4x4096 (![] : Fin 0 → Fin S4x4096.rank)
  bcast_S_S4096x4096 : S_.BroadcastsInDim S4096x4096 (![] : Fin 0 → Fin S4096x4096.rank)
  bcast_S_S_ : S_.BroadcastsInDim S_ (![] : Fin 0 → Fin S_.rank)
  pads_S4096x4096_S4096x4096_000_000 : S4096x4096.Pads (![0, 0] : Fin 2 → Nat) ![0, 0] ![0, 0] S4096x4096
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  scatter_S4x4096x4096_S4096x2_S4x4096_0_12_12_1_wf : ScatterDims.WF S4x4096x4096 S4096x2 S4x4096 [0] [1, 2] [1, 2] 1
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def scatter_S4x4096x4096_S4096x2_S4x4096_0_12_12_1 : ScatterDims S4x4096x4096 S4096x2 S4x4096 where
  updateWindowDims := [0]
  insertedWindowDims := [1, 2]
  scatterDimsToOperandDims := [1, 2]
  indexVectorDim := 1
  wf := scatter_S4x4096x4096_S4096x2_S4x4096_0_12_12_1_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.RefRunStaged.lean ====
/-
  The reference program's run, read back in two stages.

  Its @main is a straight line of 72 host operations. The first 57 (read in five stretches) compute the masked scores (the scaled products of
  every query row with every normalised key row, the diagonal overwritten, the strict upper triangle masked); the last
  15 take the softmax of each row of that array and multiply by the values. The buffer contents after the whole line are
  the contents after the last 15 operations, started from the contents after the first 57; so each result is read as
  the second stage's function of the first stage's one result, which is named and never expanded. Each stage's result
  is the corresponding stage function of the read-at-an-index module (`val_main_v28`, `val_main_v39`, `val_main_v40`).
-/
import proofs.«144197_j12713103196750_2_alg».proof.Proof.RefRead
import proofs.«144197_j12713103196750_2_alg».proof.Proof.RefOps
import Idealize.ShloMosaic.Lib.StableHlo.Run

noncomputable section

namespace Cert.ReferenceIdeal.RefRunStaged

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first stage: the masked scores, in five stretches -/

set_option maxRecDepth 65536 in
set_option maxHeartbeats 2000000 in
theorem stageA1_v7 (V : Valuation τ sig (Elt F)) :
    after (opsA1 (F := F)) V (Proc.devRef .tc main_v7) = val_main_v7 (F := F) (V (Proc.devRef .tc main_arg0)) := by
  after_results_simp <;> rfl

set_option maxRecDepth 65536 in
theorem stageA1_arg0 (V : Valuation τ sig (Elt F)) :
    after (opsA1 (F := F)) V (Proc.devRef .tc main_arg0) = V (Proc.devRef .tc main_arg0) := by
  after_results_simp <;> rfl

set_option maxRecDepth 65536 in
theorem stageA1_arg1 (V : Valuation τ sig (Elt F)) :
    after (opsA1 (F := F)) V (Proc.devRef .tc main_arg1) = V (Proc.devRef .tc main_arg1) := by
  after_results_simp <;> rfl

set_option maxRecDepth 65536 in
set_option maxHeartbeats 2000000 in
theorem stageA2_v23 (W : Valuation τ sig (Elt F)) (x0 : (⟨S4x4096x64, .f32⟩ : BufTy).Contents (Elt F))
    (hW : W (Proc.devRef .tc main_v7) = val_main_v7 (F := F) x0) :
    after (opsA2 (F := F)) W (Proc.devRef .tc main_v23) = val_main_v23 (F := F) x0 := by
  after_results_simp
  rw [hW]; rfl

set_option maxRecDepth 65536 in
theorem stageA2_arg0 (W : Valuation τ sig (Elt F)) :
    after (opsA2 (F := F)) W (Proc.devRef .tc main_arg0) = W (Proc.devRef .tc main_arg0) := by
  after_results_simp <;> rfl

set_option maxRecDepth 65536 in
theorem stageA2_arg1 (W : Valuation τ sig (Elt F)) :
    after (opsA2 (F := F)) W (Proc.devRef .tc main_arg1) = W (Proc.devRef .tc main_arg1) := by
  after_results_simp <;> rfl

set_option maxRecDepth 65536 in
set_option maxHeartbeats 1000000 in
theorem stageA3a_v25 (W : Valuation τ sig (Elt F)) :
    after (opsA3a (F := F)) W (Proc.devRef .tc main_v25) = val_main_v25 (F := F) := by
  after_results_simp <;> rfl

set_option maxRecDepth 65536 in
set_option maxHeartbeats 1000000 in
theorem stageA3b_v26 (W : Valuation τ sig (Elt F)) (hW : W (Proc.devRef .tc main_v25) = val_main_v25 (F := F)) :
    after (opsA3b (F := F)) W (Proc.devRef .tc main_v26) = val_main_v26 (F := F) := by
  after_results_simp
  rw [hW]; rfl

set_option maxRecDepth 65536 in
set_option maxHeartbeats 1000000 in
theorem stageA3c_v28 (W : Valuation τ sig (Elt F)) (x0 : (⟨S4x4096x64, .f32⟩ : BufTy).Contents (Elt F))
    (hW : W (Proc.devRef .tc main_v26) = val_main_v26 (F := F))
    (hW' : W (Proc.devRef .tc main_v23) = val_main_v23 (F := F) x0) :
    after (opsA3c (F := F)) W (Proc.devRef .tc main_v28) = val_main_v28 (F := F) x0 := by
  after_results_simp
  rw [hW, hW']
  unfold val_main_v28 val_main_call3_v0 val_main_call3_v1 val_main_v27 val_main_cst_7
  generalize val_main_v23 (F := F) x0 = y23
  generalize val_main_v26 (F := F) = y26
  rfl

set_option maxRecDepth 65536 in
theorem stageA3a_v23 (W : Valuation τ sig (Elt F)) :
    after (opsA3a (F := F)) W (Proc.devRef .tc main_v23) = W (Proc.devRef .tc main_v23) := by
  after_results_simp <;> rfl

set_option maxRecDepth 65536 in
theorem stageA3b_v23 (W : Valuation τ sig (Elt F)) :
    after (opsA3b (F := F)) W (Proc.devRef .tc main_v23) = W (Proc.devRef .tc main_v23) := by
  after_results_simp <;> rfl

set_option maxRecDepth 65536 in
theorem stageA3a_arg0 (W : Valuation τ sig (Elt F)) :
    after (opsA3a (F := F)) W (Proc.devRef .tc main_arg0) = W (Proc.devRef .tc main_arg0) := by
  after_results_simp <;> rfl

set_option maxRecDepth 65536 in
theorem stageA3a_arg1 (W : Valuation τ sig (Elt F)) :
    after (opsA3a (F := F)) W (Proc.devRef .tc main_arg1) = W (Proc.devRef .tc main_arg1) := by
  after_results_simp <;> rfl

set_option maxRecDepth 65536 in
theorem stageA3b_arg0 (W : Valuation τ sig (Elt F)) :
    after (opsA3b (F := F)) W (Proc.devRef .tc main_arg0) = W (Proc.devRef .tc main_arg0) := by
  after_results_simp <;> rfl

set_option maxRecDepth 65536 in
theorem stageA3b_arg1 (W : Valuation τ sig (Elt F)) :
    after (opsA3b (F := F)) W (Proc.devRef .tc main_arg1) = W (Proc.devRef .tc main_arg1) := by
  after_results_simp <;> rfl

set_option maxRecDepth 65536 in
theorem stageA3c_arg0 (W : Valuation τ sig (Elt F)) :
    after (opsA3c (F := F)) W (Proc.devRef .tc main_arg0) = W (Proc.devRef .tc main_arg0) := by
  after_results_simp <;> rfl

set_option maxRecDepth 65536 in
theorem stageA3c_arg1 (W : Valuation τ sig (Elt F)) :
    after (opsA3c (F := F)) W (Proc.devRef .tc main_arg1) = W (Proc.devRef .tc main_arg1) := by
  after_results_simp <;> rfl

theorem stageA_v28 (V : Valuation τ sig (Elt F)) :
    after (opsA (F := F)) V (Proc.devRef .tc main_v28) = val_main_v28 (F := F) (V (Proc.devRef .tc main_arg0)) := by
  rw [opsA_eq, after_append, after_append, after_append, after_append]
  refine stageA3c_v28 _ _ (stageA3b_v26 _ (stageA3a_v25 _)) ?_
  rw [stageA3b_v23, stageA3a_v23]
  exact stageA2_v23 _ _ (stageA1_v7 V)

theorem stageA_arg0 (V : Valuation τ sig (Elt F)) :
    after (opsA (F := F)) V (Proc.devRef .tc main_arg0) = V (Proc.devRef .tc main_arg0) := by
  rw [opsA_eq, after_append, after_append, after_append, after_append, stageA3c_arg0, stageA3b_arg0, stageA3a_arg0,
    stageA2_arg0, stageA1_arg0]

theorem stageA_arg1 (V : Valuation τ sig (Elt F)) :
    after (opsA (F := F)) V (Proc.devRef .tc main_arg1) = V (Proc.devRef .tc main_arg1) := by
  rw [opsA_eq, after_append, after_append, after_append, after_append, stageA3c_arg1, stageA3b_arg1, stageA3a_arg1,
    stageA2_arg1, stageA1_arg1]

/-! ## The second stage: the softmax of each row, and the product with the values -/

set_option maxRecDepth 65536 in
set_option maxHeartbeats 4000000 in
theorem stageB_v39 (W : Valuation τ sig (Elt F)) (x0 : (⟨S4x4096x64, .f32⟩ : BufTy).Contents (Elt F))
    (hW : W (Proc.devRef .tc main_v28) = val_main_v28 (F := F) x0) :
    after (opsB (F := F)) W (Proc.devRef .tc main_v39) = val_main_v39 (F := F) x0 := by
  after_results_simp
  rw [hW]; rfl

set_option maxRecDepth 65536 in
set_option maxHeartbeats 4000000 in
theorem stageB_v40 (W : Valuation τ sig (Elt F)) (x0 x1 : (⟨S4x4096x64, .f32⟩ : BufTy).Contents (Elt F))
    (hW : W (Proc.devRef .tc main_v28) = val_main_v28 (F := F) x0) (hW1 : W (Proc.devRef .tc main_arg1) = x1) :
    after (opsB (F := F)) W (Proc.devRef .tc main_v40) = val_main_v40 (F := F) x0 x1 := by
  after_results_simp
  rw [hW, hW1]; rfl

set_option maxRecDepth 65536 in
theorem stageB_arg0 (W : Valuation τ sig (Elt F)) :
    after (opsB (F := F)) W (Proc.devRef .tc main_arg0) = W (Proc.devRef .tc main_arg0) := by
  after_results_simp <;> rfl

set_option maxRecDepth 65536 in
theorem stageB_arg1 (W : Valuation τ sig (Elt F)) :
    after (opsB (F := F)) W (Proc.devRef .tc main_arg1) = W (Proc.devRef .tc main_arg1) := by
  after_results_simp <;> rfl

/-! ## The run -/

/-- On every device, for any float values, from any memory with zero counters: every weakly fair execution of @main
    terminates with each result at its stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = val_main_v40 (F := F) (m ((c.tc : Thread nD τ).loc main_arg0)) (m ((c.tc : Thread nD τ).loc main_arg1))
      ∧ r.2.mem ((c.tc : Thread nD τ).loc main_v39) = val_main_v39 (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      have hA := stageA_v28 (F := F) (launchContents m c)
      have hA0 := stageA_arg0 (F := F) (launchContents m c)
      have hA1 := stageA_arg1 (F := F) (launchContents m c)
      refine ⟨(h c main_v40).trans ?_, (h c main_v39).trans ?_, (h c main_arg0).trans ?_, (h c main_arg1).trans ?_⟩
      · show after (opsA ++ opsB) _ _ = _
        rw [after_append]; exact stageB_v40 _ _ _ hA hA1
      · show after (opsA ++ opsB) _ _ = _
        rw [after_append]; exact stageB_v39 _ _ hA
      · show after (opsA ++ opsB) _ _ = _
        rw [after_append, stageB_arg0]; exact hA0
      · show after (opsA ++ opsB) _ _ = _
        rw [after_append, stageB_arg1]; exact hA1)
    (run_seq scopedRefs_eq scopedSems_eq defs main (fun _ => ops) main_eq (fun _ => ops_sub) m ρ)

end Cert.ReferenceIdeal.RefRunStaged

end
-- ==== Proof.Spec.lean ====
/-
  The attention map both programs compute, written once over extended reals and plain coordinates.

  For a batch `b`, a query row `i` and a key row `j` (all rows of the same array `qk`):
    * `kn`      — the key row divided by `max (sqrt (sum of its squares)) eps`;
    * `score`   — the dot product of query row `i` with normalised key row `j`, times 1/8;
    * `masked`  — the score, except `-50000` on the diagonal and the most negative finite float strictly above it;
    * `rowmax`, `pexp`, `denom` — the row's maximum, the exponentials of the differences, and their sum;
    * `attnMul` — `pexp · (1 / denom)` (reciprocal first), `attnDiv` — `pexp / denom` (one division);
    * `outOf`   — a row of attention weights applied to the value rows.
  The float literals are kept as their bit patterns: the same word stands on both sides and is never evaluated.
-/
import Idealize.ShloMosaic.PureOps.Ideal
import Idealize.ShloMosaic.PureOps.Ideal.Laws

noncomputable section

namespace Cert.Attn

open Idealize.ShloMosaic

/-- An array of shape [4, 4096, 64] by coordinates. -/
abbrev A3 := Fin 4 → Fin 4096 → Fin 64 → EReal
/-- An array of shape [4, 4096, 4096] by coordinates. -/
abbrev A4 := Fin 4 → Fin 4096 → Fin 4096 → EReal

/-- The sum of the squares of row `j`. -/
def sumsq (qk : A3) (b : Fin 4) (j : Fin 4096) : EReal := ∑ e : Fin 64, qk b j e * qk b j e

/-- The row's norm, bounded below by the literal `1e-12`. -/
def nrm (qk : A3) (b : Fin 4) (j : Fin 4096) : EReal :=
  max (Ideal.sqrt (sumsq qk b j)) (Ideal.ofBits .f32 0x2B8CBCCC#32)

/-- The normalised key row. -/
def kn (qk : A3) (b : Fin 4) (j : Fin 4096) (e : Fin 64) : EReal := Ideal.div (qk b j e) (nrm qk b j)

/-- Query row `i` against normalised key row `j`, scaled by the literal `0.125`. -/
def score (qk : A3) (b : Fin 4) (i j : Fin 4096) : EReal :=
  (∑ e : Fin 64, qk b i e * kn qk b j e) * Ideal.ofBits .f32 0x3E000000#32

/-- The score with the diagonal set to `-50000` and everything strictly above it to the most negative finite float. -/
def masked (qk : A3) (b : Fin 4) (i j : Fin 4096) : EReal :=
  if i.val < j.val then Ideal.ofBits .f32 0xFF7FFFFF#32
  else if i.val = j.val then Ideal.ofBits .f32 0xC7435000#32
  else score qk b i j

/-- The maximum of a row of masked scores (a fold of `max` from `-∞`). -/
def rowmax (qk : A3) (b : Fin 4) (i : Fin 4096) : EReal :=
  (Finset.univ : Finset (Fin 4096)).fold max (Ideal.ofBits .f32 0xFF800000#32) (fun j => masked qk b i j)

/-- The exponential of a masked score less its row's maximum. -/
def pexp (qk : A3) (b : Fin 4) (i j : Fin 4096) : EReal := Ideal.exp (masked qk b i j - rowmax qk b i)

/-- The sum of a row of those exponentials. -/
def denom (qk : A3) (b : Fin 4) (i : Fin 4096) : EReal := ∑ j : Fin 4096, pexp qk b i j

/-- The attention weight with the reciprocal of the row sum taken first. -/
def attnMul (qk : A3) : A4 := fun b i j => pexp qk b i j * Ideal.div (Ideal.ofBits .f32 0x3F800000#32) (denom qk b i)

/-- The attention weight as one division by the row sum. -/
def attnDiv (qk : A3) : A4 := fun b i j => Ideal.div (pexp qk b i j) (denom qk b i)

/-- A row of weights applied to the value rows. -/
def outOf (w : A4) (v : A3) : A3 := fun b i e => ∑ j : Fin 4096, w b i j * v b j e

end Cert.Attn

end
-- ==== Proof.SpecRows.lean ====
/-
  The attention map of Spec.lean, one row at a time, and arrays read by coordinates.

  A row of attention weights depends on the array only through that row's scores: `maskRow` overwrites the diagonal
  entry and the entries strictly to its right, `rowSoftMul` / `rowSoftDiv` are the two spellings of the softmax of a
  row (reciprocal of the sum first, or one division), and `rowDot` is a row of weights against a column of values.
  The whole-array functions of Spec.lean are these row functions applied to the rows of scores, by definition.
-/
import proofs.«144197_j12713103196750_2_alg».proof.Proof.Spec
import Idealize.ShloMosaic.Lib.ValueIdx

noncomputable section

namespace Cert.Attn

open Idealize.ShloMosaic Idealize.ShloMosaic.ValueIdx

/-- An array of shape [4, 4096, 64] read by coordinates. -/
def arr3 (x : (⟨3, ![4, 4096, 64]⟩ : Shape).Idx → EReal) : A3 := fun b j e => x (ix3 b j e)

/-- A row of scores with entry `row` set to `-50000` and every entry to its right to the most negative finite float. -/
def maskRow (row : Nat) (s : Fin 4096 → EReal) : Fin 4096 → EReal := fun j =>
  if row < j.val then Ideal.ofBits .f32 0xFF7FFFFF#32
  else if row = j.val then Ideal.ofBits .f32 0xC7435000#32
  else s j

/-- The maximum of a row (a fold of `max` from `-∞`). -/
def rowMax (x : Fin 4096 → EReal) : EReal :=
  (Finset.univ : Finset (Fin 4096)).fold max (Ideal.ofBits .f32 0xFF800000#32) x

/-- The exponentials of a row less its maximum. -/
def rowExp (x : Fin 4096 → EReal) : Fin 4096 → EReal := fun j => Ideal.exp (x j - rowMax x)

/-- The softmax of a row with the reciprocal of the sum taken first. -/
def rowSoftMul (x : Fin 4096 → EReal) : Fin 4096 → EReal := fun j =>
  rowExp x j * Ideal.div (Ideal.ofBits .f32 0x3F800000#32) (∑ j' : Fin 4096, rowExp x j')

/-- The softmax of a row as one division by the sum. -/
def rowSoftDiv (x : Fin 4096 → EReal) : Fin 4096 → EReal := fun j =>
  Ideal.div (rowExp x j) (∑ j' : Fin 4096, rowExp x j')

/-- A row of weights against a column of values. -/
def rowDot (w : Fin 4096 → EReal) (v : Fin 4096 → EReal) : EReal := ∑ j : Fin 4096, w j * v j

theorem masked_eq (qk : A3) (b : Fin 4) (i : Fin 4096) :
    (fun j => masked qk b i j) = maskRow i.val (fun j => score qk b i j) := rfl

theorem attnMul_eq (qk : A3) (b : Fin 4) (i : Fin 4096) :
    (fun j => attnMul qk b i j) = rowSoftMul (fun j => masked qk b i j) := rfl

theorem attnDiv_eq (qk : A3) (b : Fin 4) (i : Fin 4096) :
    (fun j => attnDiv qk b i j) = rowSoftDiv (fun j => masked qk b i j) := rfl

theorem outOf_eq (w : A4) (v : A3) (b : Fin 4) (i : Fin 4096) (e : Fin 64) :
    outOf w v b i e = rowDot (fun j => w b i j) (fun j => v b j e) := rfl

end Cert.Attn

end
-- ==== Proof.RefKn.lean ====
/-
  The reference's normalised key rows, read at an index: entry (b, j, e) of the array the reference divides is the
  entry of `qk` over the larger of the row's norm and `1e-12` — `Cert.Attn.kn`.
-/
import proofs.«144197_j12713103196750_2_alg».proof.Proof.RefRead
import proofs.«144197_j12713103196750_2_alg».proof.Proof.SpecRows

noncomputable section

namespace Cert.ReferenceIdeal.RefKn

open Cert.ReferenceIdeal Cert.ReferenceIdeal.ReadP Idealize.ShloMosaic Idealize.ShloMosaic.ValueIdx Cert.Attn

theorem ref_kn (x0 : (⟨S4x4096x64, .f32⟩ : BufTy).Contents (Elt Ideal)) (b : Fin 4) (j : Fin 4096) (e : Fin 64) :
    val_main_v4 (F := Ideal) x0 (ix3 b j e) = kn (arr3 x0) b j e := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply]
  have hidx : ∀ k : Fin 64, idx_main_call0_v1 (idx_main_call0_v2 (idx_main_v3 (ix3 b j e))) k = ix3 b j k :=
    fun k => funext fun a => Fin.ext (by match a with | ⟨0, _⟩ => rfl | ⟨1, _⟩ => rfl | ⟨2, _⟩ => rfl)
  simp only [hidx]
  show Ideal.div (x0 (ix3 b j e)) (max (Ideal.sqrt (Ideal.ofBits .f32 0x00000000#32 + ∑ k : Fin 64, x0 (ix3 b j k) * x0 (ix3 b j k)))
    (Ideal.ofBits .f32 0x2B8CBCCC#32)) = _
  rw [Ideal.ofBits_zero_f32, zero_add]
  rfl

end Cert.ReferenceIdeal.RefKn

end
-- ==== Proof.KernelHost.lean ====
/-
  What the kernel's region finds in its windows.

  Before the region the program normalises the key rows (the same six host operations as the reference's: the row's sum
  of squares, its square root, the larger of that and `1e-12`, the division) and changes both arrays' float format,
  which is the identity on extended reals. So the second window's array is the reference's normalised array of the
  first argument, and the third window's is the second argument itself.

  The grid has 4 × 16 points; point `t` is batch `t / 16` and query tile `t % 16`. The query window's block at `t` is
  rows `256 · (t % 16) … + 255` of batch `t / 16`; the key and value windows' blocks are the whole batch; the two
  output windows' blocks are the query tile's rows of their arrays.
-/
import proofs.«144197_j12713103196750_2_alg».proof.Proof.FrameKernelIdeal
import proofs.«144197_j12713103196750_2_alg».proof.Proof.RefKn
import Idealize.ShloMosaic.Lib.Pipeline.Value
import Idealize.ShloMosaic.Lib.StableHlo.Run

noncomputable section

namespace Cert.KernelIdeal.KVal

open Cert.KernelIdeal Cert.KernelIdeal.Gen Cert.KernelIdeal.GenP Idealize.ShloMosaic Idealize.ShloMosaic.TcCoe Idealize.SL.Sem
open Idealize.ShloMosaic.ValueIdx Idealize.ShloMosaic.StableHlo Cert.Attn
open Idealize.ShloMosaic.Pipeline (Dat)

variable (m : (ℓ : Loc nD τ sig) → Buf (Elt Ideal) ℓ)

/-! ## The host operations before the region -/

/-- The key window's array is the reference's normalised array of the first argument. -/
theorem V_v8 (c : Dev nD) :
    (V m c main_v8 : S4x4096x64.Idx → EReal)
      = Cert.ReferenceIdeal.ReadP.val_main_v4 (F := Ideal) (m ((c : Thread nD τ).loc main_arg0)) := by
  dsimp only [GenP.V, Gen.hostOps0]; after_results; rfl

/-- The value window's array is the second argument. -/
theorem V_v9 (c : Dev nD) :
    (V m c main_v9 : S4x4096x64.Idx → EReal) = m ((c : Thread nD τ).loc main_arg1) := by
  dsimp only [GenP.V, Gen.hostOps0]; after_results; rfl

/-! ## The index maps over the grid -/

theorem hz3 : (![0, 0, 0] : Fin 3 → Nat) = fun _ => 0 := funext fun a => by fin_cases a <;> rfl

/-- The printed index maps, decided over the 64 grid points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = t.val % 16 ∧ win0_4.index t (2 : Fin 3) = 0
    ∧ ((grid0.coords t) (1 : Fin 2)).val = t.val % 16 :=
  (by decide +kernel : ∀ t : Fin grid0.N, _)

/-- Every (batch, query tile) is some point's. -/
theorem idx_onto : ∀ (b : Fin 4) (qi : Fin 16), ∃ t : Fin cfg0.N, t.val = b.val * 16 + qi.val :=
  (by decide +kernel : ∀ (b : Fin 4) (qi : Fin 16), ∃ t : Fin grid0.N, t.val = b.val * 16 + qi.val)

/-! ## The input windows' blocks -/

/-- The query window's block at point `t`: rows `256 · (t % 16) + p` of batch `t / 16` of the first argument. -/
theorem blk0 (c : Dev nD) (t : Fin cfg0.N) (p : Fin 256) (e : Fin 64) (b : Fin 4) (r : Fin 4096)
    (hb : b.val = t.val / 16) (hr : r.val = t.val % 16 * 256 + p.val) :
    iblk m c 0 t (ix3 (0 : Fin 1) p e) = m ((c : Thread nD τ).loc main_arg0) (ix3 b r e) := by
  show V m c main_arg0 (((cfg0.win 0).blk t).view.emb (ix3 (0 : Fin 1) p e)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = b.val; omega
  | ⟨1, _⟩ => show win0_0.index t (1 : Fin 3) * 256 + 1 * p.val = r.val; omega
  | ⟨2, _⟩ => show win0_0.index t (2 : Fin 3) * 64 + 1 * e.val = e.val; omega

/-- The key window's block at point `t`: the normalised rows of batch `t / 16`. -/
theorem blk1 (c : Dev nD) (t : Fin cfg0.N) (j : Fin 4096) (e : Fin 64) (b : Fin 4) (hb : b.val = t.val / 16) :
    iblk m c 1 t (ix3 (0 : Fin 1) j e) = kn (arr3 (m ((c : Thread nD τ).loc main_arg0))) b j e := by
  show (V m c main_v8 : S4x4096x64.Idx → EReal) (((cfg0.win 1).blk t).view.emb (ix3 (0 : Fin 1) j e)) = _
  rw [V_v8, ← Cert.ReferenceIdeal.RefKn.ref_kn]
  refine congrArg _ (funext fun a => Fin.ext ?_)
  obtain ⟨-, -, -, e0, e1, e2, -⟩ := idx_facts t
  match a with
  | ⟨0, _⟩ => show win0_1.index t (0 : Fin 3) * 1 + 1 * 0 = b.val; omega
  | ⟨1, _⟩ => show win0_1.index t (1 : Fin 3) * 4096 + 1 * j.val = j.val; omega
  | ⟨2, _⟩ => show win0_1.index t (2 : Fin 3) * 64 + 1 * e.val = e.val; omega

/-- The value window's block at point `t`: the rows of batch `t / 16` of the second argument. -/
theorem blk2 (c : Dev nD) (t : Fin cfg0.N) (j : Fin 4096) (e : Fin 64) (b : Fin 4) (hb : b.val = t.val / 16) :
    iblk m c 2 t (ix3 (0 : Fin 1) j e) = m ((c : Thread nD τ).loc main_arg1) (ix3 b j e) := by
  show (V m c main_v9 : S4x4096x64.Idx → EReal) (((cfg0.win 2).blk t).view.emb (ix3 (0 : Fin 1) j e)) = _
  rw [V_v9]
  refine congrArg _ (funext fun a => Fin.ext ?_)
  obtain ⟨-, -, -, -, -, -, e0, e1, e2, -⟩ := idx_facts t
  match a with
  | ⟨0, _⟩ => show win0_2.index t (0 : Fin 3) * 1 + 1 * 0 = b.val; omega
  | ⟨1, _⟩ => show win0_2.index t (1 : Fin 3) * 4096 + 1 * j.val = j.val; omega
  | ⟨2, _⟩ => show win0_2.index t (2 : Fin 3) * 64 + 1 * e.val = e.val; omega

end Cert.KernelIdeal.KVal

end
-- ==== Proof.KernelPayloadMatmul.lean ====
/-
  The attention kernel's two matrix products read at an index.

  Each product contracts one axis, so its element is a sum over that axis's coordinate: the scores contract the
  feature axis of the queries with the feature axis of the keys, the output contracts the key axis of the weights with
  the row axis of the values.
-/
import proofs.«144197_j12713103196750_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the two products -/

theorem lhsA_0 (j : S256x4096.Idx) (q : dot_S256x64_S4096x64_S256x4096_1_1_0_0_n_n.contr.Idx) :
    (dot_S256x64_S4096x64_S256x4096_1_1_0_0_n_n.lhsIdx j q 0).val = (j 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl
theorem lhsA_1 (j : S256x4096.Idx) (q : dot_S256x64_S4096x64_S256x4096_1_1_0_0_n_n.contr.Idx) :
    (dot_S256x64_S4096x64_S256x4096_1_1_0_0_n_n.lhsIdx j q 1).val = (q ⟨0, by decide⟩).val :=
  dot_S256x64_S4096x64_S256x4096_1_1_0_0_n_n.lhsIdx_val_of_single rfl j q
theorem rhsA_0 (j : S256x4096.Idx) (q : dot_S256x64_S4096x64_S256x4096_1_1_0_0_n_n.contr.Idx) :
    (dot_S256x64_S4096x64_S256x4096_1_1_0_0_n_n.rhsIdx j q 0).val = (j 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl
theorem rhsA_1 (j : S256x4096.Idx) (q : dot_S256x64_S4096x64_S256x4096_1_1_0_0_n_n.contr.Idx) :
    (dot_S256x64_S4096x64_S256x4096_1_1_0_0_n_n.rhsIdx j q 1).val = (q ⟨0, by decide⟩).val :=
  dot_S256x64_S4096x64_S256x4096_1_1_0_0_n_n.rhsIdx_val_of_single rfl j q

theorem lhsB_0 (j : S256x64.Idx) (q : dot_S256x4096_S4096x64_S256x64_1_0_0_1_n_n.contr.Idx) :
    (dot_S256x4096_S4096x64_S256x64_1_0_0_1_n_n.lhsIdx j q 0).val = (j 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem lhsB_1 (j : S256x64.Idx) (q : dot_S256x4096_S4096x64_S256x64_1_0_0_1_n_n.contr.Idx) :
    (dot_S256x4096_S4096x64_S256x64_1_0_0_1_n_n.lhsIdx j q 1).val = (q ⟨0, by decide⟩).val :=
  dot_S256x4096_S4096x64_S256x64_1_0_0_1_n_n.lhsIdx_val_of_single rfl j q
theorem rhsB_0 (j : S256x64.Idx) (q : dot_S256x4096_S4096x64_S256x64_1_0_0_1_n_n.contr.Idx) :
    (dot_S256x4096_S4096x64_S256x64_1_0_0_1_n_n.rhsIdx j q 0).val = (q ⟨0, by decide⟩).val :=
  dot_S256x4096_S4096x64_S256x64_1_0_0_1_n_n.rhsIdx_val_of_single rfl j q
theorem rhsB_1 (j : S256x64.Idx) (q : dot_S256x4096_S4096x64_S256x64_1_0_0_1_n_n.contr.Idx) :
    (dot_S256x4096_S4096x64_S256x64_1_0_0_1_n_n.rhsIdx j q 1).val = (j 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-! ## The two products at an index -/

/-- Queries against keys: entry `(p, q)` is the sum over the feature coordinate of query row `p` times key row `q`. -/
theorem matmulA_apply (a : FVec Ideal S256x64 .bf16) (b : FVec Ideal S4096x64 .bf16) (p : Fin 256) (q : Fin 4096) :
    matmul dot_S256x64_S4096x64_S256x4096_1_1_0_0_n_n none a b (constant (F := Ideal) S256x4096 .f32 0x00000000#32) (ix2 p q)
      = ∑ e : Fin 64, a (ix2 p e) * b (ix2 q e) := by
  simp only [matmul]
  rw [Ideal.matmul_constant_zero_apply,
    ← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 p q)
      ((contrEquiv1 dot_S256x64_S4096x64_S256x4096_1_1_0_0_n_n 64 rfl rfl).symm k) = ix2 p k :=
    funext fun x => Fin.ext (by
      match x with
      | ⟨0, _⟩ => exact lhsA_0 _ _
      | ⟨1, _⟩ => exact (lhsA_1 _ _).trans hk)
  have er : dot_S256x64_S4096x64_S256x4096_1_1_0_0_n_n.rhsIdx (ix2 p q)
      ((contrEquiv1 dot_S256x64_S4096x64_S256x4096_1_1_0_0_n_n 64 rfl rfl).symm k) = ix2 q k :=
    funext fun x => Fin.ext (by
      match x with
      | ⟨0, _⟩ => exact rhsA_0 _ _
      | ⟨1, _⟩ => exact (rhsA_1 _ _).trans hk)
  rw [el, er]

/-- Weights against values: entry `(p, e)` is the sum over the key coordinate of weight row `p` times value column `e`. -/
theorem matmulB_apply (a : FVec Ideal S256x4096 .bf16) (b : FVec Ideal S4096x64 .bf16) (p : Fin 256) (e : Fin 64) :
    matmul dot_S256x4096_S4096x64_S256x64_1_0_0_1_n_n none a b (constant (F := Ideal) S256x64 .f32 0x00000000#32) (ix2 p e)
      = ∑ j : Fin 4096, a (ix2 p j) * b (ix2 j e) := by
  simp only [matmul]
  rw [Ideal.matmul_constant_zero_apply,
    ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 p e)
      ((contrEquiv1 dot_S256x4096_S4096x64_S256x64_1_0_0_1_n_n 4096 rfl rfl).symm k) = ix2 p k :=
    funext fun x => Fin.ext (by
      match x with
      | ⟨0, _⟩ => exact lhsB_0 _ _
      | ⟨1, _⟩ => exact (lhsB_1 _ _).trans hk)
  have er : dot_S256x4096_S4096x64_S256x64_1_0_0_1_n_n.rhsIdx (ix2 p e)
      ((contrEquiv1 dot_S256x4096_S4096x64_S256x64_1_0_0_1_n_n 4096 rfl rfl).symm k) = ix2 k e :=
    funext fun x => Fin.ext (by
      match x with
      | ⟨0, _⟩ => exact (rhsB_0 _ _).trans hk
      | ⟨1, _⟩ => exact rhsB_1 _ _)
  rw [el, er]

end Cert.KernelIdeal.Payload

end
-- ==== Proof.KernelPayloadOps.lean ====
/-
  The non-pointwise operations of the attention kernel's body, each read at an index given by coordinates.

  * the keepdims layout forms: a vector `[a]` viewed as a column `[a, 1]`, and a column `[a, 1]` repeated along
    the lanes to `[a, b]`;
  * the lane maximum and the lane sum of a `[256, 4096]` array, as the row functions of the specification;
  * the integer side of the mask: the row number `256 · g + p` as a 32-bit word, and the two comparisons of such
    words, which on numbers this small decide `=` and `<` on the naturals.
-/
import proofs.«144197_j12713103196750_2_alg».proof.Proof.Gen.KernelIdeal.Skeleton
import proofs.«144197_j12713103196750_2_alg».proof.Proof.SpecRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## Keepdims layout forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions -/

/-- Over result row `p`, the source index with lane coordinate `j` inserted is `(p, j)`. -/
theorem lift_row (p : Fin 256) (j : Fin 4096) : reduces_S256x4096_S256.lift (ix1 p) j = ix2 p j :=
  funext fun c => Fin.ext (by match c with | ⟨0, _⟩ => rfl | ⟨1, _⟩ => rfl)

/-- The lane maximum of a `[256, 4096]` array at row `p`: the fold of `max` from `-∞` over the row. -/
theorem rowMax_apply (src : FVec Ideal S256x4096 .f32) (hφ : FKind.Formats .f32)
    (hacc : (0xFF800000#32 : BitVec 32) = 0xFF800000#32) (p : Fin 256) :
    multiReduction .maximumf [1] S256 src 0xFF800000#32 reduces_S256x4096_S256 hφ hacc (ix1 p)
      = Cert.Attn.rowMax (fun j => src (ix2 p j)) := by
  refine (Ideal.multiReduction_maximumf_single src 0xFF800000#32 reduces_S256x4096_S256 hφ hacc (ix1 p)).trans ?_
  have hf : (src ∘ reduces_S256x4096_S256.lift (ix1 p)) = fun j : Fin 4096 => src (ix2 p j) :=
    funext fun j => congrArg src (lift_row p j)
  exact congrArg (fun f => Finset.fold max (Ideal.ofBits .f32 0xFF800000#32) f (Finset.univ : Finset (Fin 4096))) hf

/-- The lane sum of a `[256, 4096]` array at row `p`: the sum over the row. -/
theorem rowSum_apply (src : FVec Ideal S256x4096 .f32) (hφ : FKind.Formats .f32)
    (hacc : (0x00000000#32 : BitVec 32) = 0x00000000#32) (p : Fin 256) :
    multiReduction .add [1] S256 src 0x00000000#32 reduces_S256x4096_S256 hφ hacc (ix1 p)
      = ∑ j : Fin 4096, src (ix2 p j) := by
  refine (Ideal.multiReduction_add_single src 0x00000000#32 reduces_S256x4096_S256 hφ hacc (ix1 p)).trans ?_
  exact Finset.sum_congr rfl fun j _ => congrArg src (lift_row p j)

/-! ## Words: the row number and the two comparisons -/

/-- Equality of two 32-bit words of numbers below `2 ^ 32` is equality of the numbers. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have := congrArg BitVec.toNat e
      simp only [BitVec.toNat_ofNat] at this
      rw [Nat.mod_eq_of_lt ha, Nat.mod_eq_of_lt hb] at this; exact this)
    rw [beq_eq_false_iff_ne.mpr hne, if_neg h]; rfl

/-- A number below `2 ^ 16` read back signed from its 32-bit word is itself. -/
theorem toInt_ofNat_small (a : Nat) (ha : a < 2 ^ 16) : (BitVec.ofNat 32 a).toInt = (a : Int) := by
  rw [BitVec.toInt_eq_toNat_cond, BitVec.toNat_ofNat, Nat.mod_eq_of_lt (by omega)]
  rw [if_pos (by omega)]

/-- The signed "greater than" of two 32-bit words of numbers below `2 ^ 16` is `<` on the numbers. -/
theorem cmpi_sgt_ofNat (a b : Nat) (ha : a < 2 ^ 16) (hb : b < 2 ^ 16) :
    IntOp.cmpi .sgt (BitVec.ofNat 32 b) (BitVec.ofNat 32 a) = if a < b then 1#1 else 0#1 := by
  unfold IntOp.cmpi
  have hslt : (BitVec.ofNat 32 a).slt (BitVec.ofNat 32 b) = decide (a < b) := by
    unfold BitVec.slt
    rw [toInt_ofNat_small a ha, toInt_ofNat_small b hb]
    simp
  simp only [hslt]
  by_cases h : a < b <;> simp [h]

/-- The word `256 · g + p`: the tile's first row number plus the row's place in the tile. -/
theorem row_word (g p : Nat) :
    IntOp.addi (Scalar.muli (BitVec.ofNat 32 g) 256#32) (BitVec.ofNat 32 p) = BitVec.ofNat 32 (g * 256 + p) := by
  unfold IntOp.addi Scalar.muli IntOp.muli
  rw [BitVec.ofNat_add, BitVec.ofNat_mul]

end Cert.KernelIdeal.Payload

end
-- ==== Proof.KernelPayload.lean ====
/-
  The attention kernel's body read at an index, at the ideal values.

  The body computes, for one tile of 256 query rows: the scores (queries against keys, times 1/8), the masked scores
  (the diagonal entry overwritten first, then everything strictly to its right), the softmax of each row with the
  reciprocal of the row sum taken first, and the weights against the values. Each stage is named here as a function of
  the stage before it; the body's payload is their composition by definition, and each stage read at `(p, q)` is the
  corresponding row function of the specification.
-/
import proofs.«144197_j12713103196750_2_alg».proof.Proof.KernelPayloadMatmul
import proofs.«144197_j12713103196750_2_alg».proof.Proof.KernelPayloadOps

noncomputable section

namespace Cert.KernelIdeal.Payload

open Cert.KernelIdeal Cert.KernelIdeal.Gen Idealize.ShloMosaic Idealize.ShloMosaic.ValueIdx

/-! ## The three layout payloads -/

/-- The weights stored: the `[256, 4096]` array under a leading unit axis. -/
theorem pay1_apply (v35 : FVec Ideal S256x4096 .f32) (p : Fin 256) (q : Fin 4096) :
    k0_pay1 (F := Ideal) v35 (ix3 (0 : Fin 1) p q) = v35 (ix2 p q) := by
  unfold k0_pay1
  exact shapeCast_ab_1ab_apply v35 _ (0 : Fin 1) p q

/-- The values loaded: the `[1, 4096, 64]` block without its unit axis. -/
theorem pay3_apply (v6 : Vec Ideal S1x4096x64 .bf16) (j : Fin 4096) (e : Fin 64) :
    k0_pay3 (F := Ideal) v6 (ix2 j e) = v6 (ix3 (0 : Fin 1) j e) := by
  unfold k0_pay3
  exact shapeCast_1ab_ab_apply v6 _ j e

/-- The output stored: weight row `p` against value column `e`. -/
theorem pay2_apply (v7 : FVec Ideal S4096x64 .bf16) (v35 : FVec Ideal S256x4096 .f32) (p : Fin 256) (e : Fin 64) :
    k0_pay2 (F := Ideal) v7 v35 (ix3 (0 : Fin 1) p e) = ∑ j : Fin 4096, v35 (ix2 p j) * v7 (ix2 j e) := by
  unfold k0_pay2
  refine (shapeCast_ab_1ab_apply _ _ (0 : Fin 1) p e).trans ?_
  exact matmulB_apply _ v7 p e

/-! ## The scores -/

/-- Queries against keys, times the literal `0.125`. -/
def scores (v1 : Vec Ideal S1x256x64 .f32) (v4 : Vec Ideal S1x4096x64 .bf16) : FVec Ideal S256x4096 .f32 :=
  mulf
    (matmul dot_S256x64_S4096x64_S256x4096_1_1_0_0_n_n none
      (truncf .bf16 (shapeCast S256x64 v1 shapeCasts_S1x256x64_S256x64 : FVec Ideal S256x64 .f32) bitsLt_bf16_f32 : FVec Ideal S256x64 .bf16)
      (shapeCast S4096x64 v4 shapeCasts_S1x4096x64_S4096x64 : FVec Ideal S4096x64 .bf16)
      (constant S256x4096 .f32 0x00000000#32))
    (broadcast S256x4096 (Scalar.ofBits .f32 0x3E000000#32 : Ideal .f32))

/-- Entry `(p, q)` of the scores: query row `p` against key row `q` over the feature coordinate, times `0.125`. -/
theorem scores_apply (v1 : Vec Ideal S1x256x64 .f32) (v4 : Vec Ideal S1x4096x64 .bf16) (p : Fin 256) (q : Fin 4096) :
    scores v1 v4 (ix2 p q)
      = (∑ e : Fin 64, v1 (ix3 (0 : Fin 1) p e) * v4 (ix3 (0 : Fin 1) q e)) * Ideal.ofBits .f32 0x3E000000#32 := by
  unfold scores
  refine (mulf_apply _ _ (ix2 p q)).trans ?_
  refine congrArg₂ (· * ·) ?_ rfl
  refine (matmulA_apply _ _ p q).trans ?_
  refine Finset.sum_congr rfl fun e _ => ?_
  exact congrArg₂ (· * ·) (shapeCast_1ab_ab_apply v1 _ p e) (shapeCast_1ab_ab_apply v4 _ q e)

/-! ## The mask -/

/-- The row number of every entry, as a 32-bit word: the tile's first row plus the row's place in the tile. -/
def rowIdx (i : grid0.Coords) : IVec S256x4096 32 :=
  broadcastTo S256x4096
    (addi (broadcast S256x1 (Scalar.muli (BitVec.ofNat 32 (i 1).val) 256#32)) (iota .tc S256x1 32 [0] iota_S256x1_d0_w32))
    broadcasts_S256x1_S256x4096

/-- The column number of every entry, as a 32-bit word. -/
def colIdx : IVec S256x4096 32 :=
  broadcastTo S256x4096 (iota .tc S1x4096 32 [1] iota_S1x4096_d1_w32) broadcasts_S1x4096_S256x4096

theorem rowIdx_apply (i : grid0.Coords) (p : Fin 256) (q : Fin 4096) :
    rowIdx i (ix2 p q) = BitVec.ofNat 32 ((i 1).val * 256 + p.val) := by
  unfold rowIdx
  refine (broadcastTo_a1_ab_apply _ _ p q).trans ?_
  show IntOp.addi (Scalar.muli (BitVec.ofNat 32 (i 1).val) 256#32)
      (iota .tc S256x1 32 [0] iota_S256x1_d0_w32 (ix2 p (0 : Fin 1))) = _
  rw [iota_single_apply]
  exact row_word _ _

theorem colIdx_apply (p : Fin 256) (q : Fin 4096) : colIdx (ix2 p q) = BitVec.ofNat 32 q.val := by
  unfold colIdx
  refine (broadcastTo_1b_ab_apply _ _ p q).trans ?_
  exact iota_single_apply .tc S1x4096 32 1 iota_S1x4096_d1_w32 (ix2 (0 : Fin 1) q)

/-- The scores with the diagonal overwritten by `-50000` and then everything strictly to its right by the most negative
    finite float. -/
def masked (i : grid0.Coords) (v10 : FVec Ideal S256x4096 .f32) : FVec Ideal S256x4096 .f32 :=
  select (cmpi .sgt colIdx (rowIdx i)) (broadcast S256x4096 (Scalar.ofBits .f32 0xFF7FFFFF#32 : Ideal .f32))
    (select (cmpi .eq (rowIdx i) colIdx) (broadcast S256x4096 (Scalar.ofBits .f32 0xC7435000#32 : Ideal .f32)) v10)

/-- Row `p` of the masked scores is the specification's masked row with row number `256 · (i 1) + p`: the two overwrites
    hit disjoint entries, so their order does not matter. -/
theorem masked_apply (i : grid0.Coords) (v10 : FVec Ideal S256x4096 .f32) (p : Fin 256) (q : Fin 4096) :
    masked i v10 (ix2 p q) = Cert.Attn.maskRow ((i 1).val * 256 + p.val) (fun j => v10 (ix2 p j)) q := by
  have hg : (i 1).val < 16 := (i 1).isLt
  have hp := p.isLt
  have hq := q.isLt
  unfold masked
  show Scalar.select (IntOp.cmpi .sgt (colIdx (ix2 p q)) (rowIdx i (ix2 p q))) (Ideal.ofBits .f32 0xFF7FFFFF#32)
      (Scalar.select (IntOp.cmpi .eq (rowIdx i (ix2 p q)) (colIdx (ix2 p q))) (Ideal.ofBits .f32 0xC7435000#32)
        (v10 (ix2 p q))) = _
  rw [rowIdx_apply, colIdx_apply, cmpi_sgt_ofNat _ _ (by omega) (by omega), cmpi_eq_ofNat _ _ (by omega) (by omega)]
  unfold Cert.Attn.maskRow
  by_cases h1 : (i 1).val * 256 + p.val < q.val
  · rw [if_pos h1, if_pos h1]; exact select_one _ _
  · rw [if_neg h1, if_neg h1, select_zero]
    by_cases h2 : (i 1).val * 256 + p.val = q.val
    · rw [if_pos h2, if_pos h2]; exact select_one _ _
    · rw [if_neg h2, if_neg h2]; exact select_zero _ _

/-! ## The softmax of each row -/

/-- An exponential at an index is the exponential of the element. -/
theorem exp_apply {s : Shape} {φ : FTy} (a : FVec Ideal s φ) (j : s.Idx) : exp a j = Ideal.exp (a j) := rfl

/-- The exponentials of the entries less their row's maximum. -/
def rowExpV (v24 : FVec Ideal S256x4096 .f32) : FVec Ideal S256x4096 .f32 :=
  exp (subf v24
    (broadcastTo S256x4096
      (shapeCast S256x1 (multiReduction .maximumf [1] S256 v24 0xFF800000#32 reduces_S256x4096_S256 (.inl rfl) rfl)
        shapeCasts_S256_S256x1)
      broadcasts_S256x1_S256x4096))

theorem rowExpV_apply (v24 : FVec Ideal S256x4096 .f32) (p : Fin 256) (q : Fin 4096) :
    rowExpV v24 (ix2 p q) = Cert.Attn.rowExp (fun j => v24 (ix2 p j)) q := by
  unfold rowExpV Cert.Attn.rowExp
  refine (exp_apply _ _).trans ?_
  refine congrArg Ideal.exp ?_
  refine (subf_apply _ _ _).trans ?_
  refine congrArg (v24 (ix2 p q) - ·) ?_
  refine (broadcastTo_a1_ab_apply _ _ p q).trans ?_
  refine (shapeCast_a_a1_apply _ _ p (0 : Fin 1)).trans ?_
  exact rowMax_apply v24 _ _ p

/-- The exponentials times the reciprocal of their row's sum. -/
def softV (v24 : FVec Ideal S256x4096 .f32) : FVec Ideal S256x4096 .f32 :=
  mulf (rowExpV v24)
    (broadcastTo S256x4096
      (divf (broadcast S256x1 (Scalar.ofBits .f32 0x3F800000#32 : Ideal .f32))
        (shapeCast S256x1
          (multiReduction .add [1] S256 (rowExpV v24) 0x00000000#32 reduces_S256x4096_S256 (.inl rfl) rfl)
          shapeCasts_S256_S256x1))
      broadcasts_S256x1_S256x4096)

theorem softV_apply (v24 : FVec Ideal S256x4096 .f32) (p : Fin 256) (q : Fin 4096) :
    softV v24 (ix2 p q) = Cert.Attn.rowSoftMul (fun j => v24 (ix2 p j)) q := by
  unfold softV Cert.Attn.rowSoftMul
  refine (mulf_apply _ _ _).trans ?_
  refine congrArg₂ (· * ·) (rowExpV_apply v24 p q) ?_
  refine (broadcastTo_a1_ab_apply _ _ p q).trans ?_
  refine (divf_apply _ _ _).trans ?_
  refine congrArg₂ Ideal.div rfl ?_
  refine (shapeCast_a_a1_apply _ _ p (0 : Fin 1)).trans ?_
  refine (rowSum_apply _ _ _ p).trans ?_
  exact Finset.sum_congr rfl fun j _ => rowExpV_apply v24 p j

/-! ## The weights -/

/-- The body's weights are the three stages composed: by definition. -/
theorem pay4_eq (i : grid0.Coords) (v1 : Vec Ideal S1x256x64 .f32) (v4 : Vec Ideal S1x4096x64 .bf16) :
    k0_pay4 (F := Ideal) i v1 v4 = softV (masked i (scores v1 v4)) := rfl

/-- Entry `(p, q)` of the weights: the softmax, reciprocal of the sum first, of the masked row of scores with row number
    `256 · (i 1) + p`, at `q`. -/
theorem pay4_apply (i : grid0.Coords) (v1 : Vec Ideal S1x256x64 .f32) (v4 : Vec Ideal S1x4096x64 .bf16)
    (p : Fin 256) (q : Fin 4096) :
    k0_pay4 (F := Ideal) i v1 v4 (ix2 p q)
      = Cert.Attn.rowSoftMul (Cert.Attn.maskRow ((i 1).val * 256 + p.val)
          (fun j => (∑ e : Fin 64, v1 (ix3 (0 : Fin 1) p e) * v4 (ix3 (0 : Fin 1) j e)) * Ideal.ofBits .f32 0x3E000000#32)) q := by
  rw [pay4_eq]
  refine (softV_apply _ p q).trans ?_
  refine congrArg (fun f => Cert.Attn.rowSoftMul f q) ?_
  funext j
  refine (masked_apply i _ p j).trans ?_
  refine congrArg (fun s => Cert.Attn.maskRow ((i 1).val * 256 + p.val) s j) ?_
  funext j'
  exact scores_apply v1 v4 p j'

end Cert.KernelIdeal.Payload

end
-- ==== Proof.KernelBlocks.lean ====
/-
  From the kernel's blocks to its two result arrays.

  At grid point `t` (batch `t / 16`, query tile `t % 16`) the body stores, through the two output windows, the tile's
  256 rows of attention weights — the row softmax (reciprocal of the sum first) of the masked scores of query row
  `256 · (t % 16) + p` against all 4096 normalised key rows — and those weights applied to the value rows. So what
  point `t` writes back is block `t` of one whole-array function of the two arguments (`attnMul`, and `outOf attnMul`),
  the 64 blocks tile each array, and each array after the run is that function.
-/
import proofs.«144197_j12713103196750_2_alg».proof.Proof.KernelHost
import proofs.«144197_j12713103196750_2_alg».proof.Proof.KernelPayload

noncomputable section

namespace Cert.KernelIdeal.KVal

open Cert.KernelIdeal Cert.KernelIdeal.Gen Cert.KernelIdeal.GenP Idealize.ShloMosaic Idealize.ShloMosaic.TcCoe Idealize.SL.Sem
open Idealize.ShloMosaic.ValueIdx Cert.Attn Cert.KernelIdeal.Payload
open Idealize.ShloMosaic.Pipeline (Dat)

variable (m : (ℓ : Loc nD τ sig) → Buf (Elt Ideal) ℓ) (ρ : Dev nD → PrngReg)

/-! ## The two whole-array functions -/

/-- The attention weights as an array of shape [4, 4096, 4096]. -/
def attnArr (x0 : S4x4096x64.Idx → EReal) : S4x4096x4096.Idx → EReal := fun i =>
  attnMul (arr3 x0) ⟨(i 0).val, (i 0).isLt⟩ ⟨(i 1).val, (i 1).isLt⟩ ⟨(i 2).val, (i 2).isLt⟩

/-- The weights applied to the values, as an array of shape [4, 4096, 64]. -/
def outArr (x0 x1 : S4x4096x64.Idx → EReal) : S4x4096x64.Idx → EReal := fun i =>
  outOf (attnMul (arr3 x0)) (arr3 x1) ⟨(i 0).val, (i 0).isLt⟩ ⟨(i 1).val, (i 1).isLt⟩ ⟨(i 2).val, (i 2).isLt⟩

theorem attnArr_eq (x0 : S4x4096x64.Idx → EReal) (i : S4x4096x4096.Idx) (b : Fin 4) (r q : Fin 4096)
    (h0 : (i 0).val = b.val) (h1 : (i 1).val = r.val) (h2 : (i 2).val = q.val) :
    attnArr x0 i = attnMul (arr3 x0) b r q := by
  unfold attnArr
  have e0 : (⟨(i 0).val, (i 0).isLt⟩ : Fin 4) = b := Fin.ext h0
  have e1 : (⟨(i 1).val, (i 1).isLt⟩ : Fin 4096) = r := Fin.ext h1
  have e2 : (⟨(i 2).val, (i 2).isLt⟩ : Fin 4096) = q := Fin.ext h2
  rw [e0, e1, e2]

theorem outArr_eq (x0 x1 : S4x4096x64.Idx → EReal) (i : S4x4096x64.Idx) (b : Fin 4) (r : Fin 4096) (e : Fin 64)
    (h0 : (i 0).val = b.val) (h1 : (i 1).val = r.val) (h2 : (i 2).val = e.val) :
    outArr x0 x1 i = outOf (attnMul (arr3 x0)) (arr3 x1) b r e := by
  unfold outArr
  have e0 : (⟨(i 0).val, (i 0).isLt⟩ : Fin 4) = b := Fin.ext h0
  have e1 : (⟨(i 1).val, (i 1).isLt⟩ : Fin 4096) = r := Fin.ext h1
  have e2 : (⟨(i 2).val, (i 2).isLt⟩ : Fin 64) = e := Fin.ext h2
  rw [e0, e1, e2]

/-! ## The body's two results at a point, over variables -/

/-- The weights' block: entry (p, q) is the softmax of the masked row of scores of the block's query row `p`. -/
theorem out4_apply (i : grid0.Coords) (v0 : Vec Ideal S1x256x64 .f32) (v1 v2 : Vec Ideal S1x4096x64 .bf16)
    (y : S1x256x4096.Idx) :
    out0_4 i v0 v1 v2 y
      = rowSoftMul (maskRow ((i 1).val * 256 + (y 1).val)
          (fun j => (∑ e : Fin 64, v0 (ix3 (0 : Fin 1) ⟨(y 1).val, (y 1).isLt⟩ e) * v1 (ix3 (0 : Fin 1) j e))
            * Ideal.ofBits .f32 0x3E000000#32)) ⟨(y 2).val, (y 2).isLt⟩ := by
  obtain ⟨a, p, q, rfl⟩ : ∃ (a : Fin 1) (p : Fin 256) (q : Fin 4096), y = ix3 a p q := ⟨y 0, y 1, y 2, eq_ix3 y⟩
  obtain rfl : a = 0 := Subsingleton.elim _ _
  unfold out0_4
  rw [View.canon_unit_zero hz3]
  simp only [View.ld_unit_zero (S := S1x256x64) hz3, View.ld_unit_zero (S := S1x4096x64) hz3]
  refine (pay1_apply _ p q).trans ?_
  exact pay4_apply i v0 v1 p q

/-- The output's block: entry (p, e) is the block's row `p` of weights against column `e` of the values. -/
theorem out3_apply (i : grid0.Coords) (v0 : Vec Ideal S1x256x64 .f32) (v1 v2 : Vec Ideal S1x4096x64 .bf16)
    (y : S1x256x64.Idx) :
    out0_3 i v0 v1 v2 y
      = ∑ j : Fin 4096, rowSoftMul (maskRow ((i 1).val * 256 + (y 1).val)
          (fun j' => (∑ e' : Fin 64, v0 (ix3 (0 : Fin 1) ⟨(y 1).val, (y 1).isLt⟩ e') * v1 (ix3 (0 : Fin 1) j' e'))
            * Ideal.ofBits .f32 0x3E000000#32)) j
            * v2 (ix3 (0 : Fin 1) j ⟨(y 2).val, (y 2).isLt⟩) := by
  obtain ⟨a, p, e, rfl⟩ : ∃ (a : Fin 1) (p : Fin 256) (e : Fin 64), y = ix3 a p e := ⟨y 0, y 1, y 2, eq_ix3 y⟩
  obtain rfl : a = 0 := Subsingleton.elim _ _
  unfold out0_3
  rw [View.canon_unit_zero hz3]
  simp only [View.ld_unit_zero (S := S1x256x64) hz3, View.ld_unit_zero (S := S1x4096x64) hz3]
  refine (pay2_apply _ _ p e).trans ?_
  refine Finset.sum_congr rfl fun j _ => ?_
  rw [pay4_apply i v0 v1 p j, pay3_apply v2 j e]

/-! ## What a point writes back -/

theorem tdiv_lt (t : Fin cfg0.N) : t.val / 16 < 4 := by
  have h := t.isLt
  have hN : cfg0.N = 64 := N_0
  omega

theorem tmod_lt (t : Fin cfg0.N) (p : Nat) (hp : p < 256) : t.val % 16 * 256 + p < 4096 := by omega

/-- Point `t` writes back block `t` of the attention weights. -/
theorem flushed4_eq (c : Dev nD) (t : Fin cfg0.N) :
    (dats m 0 c).flushed 4 t
      = ((cfg0.win 4).blk t).view.read (Elt Ideal) (attnArr (m ((c : Thread nD τ).loc main_arg0))) := by
  show (cfg0.win 4).cut (grid0.coords t) ((dats m 0 c).after 4 t) = _
  rw [after0_4]
  funext y
  show out0_4 (grid0.coords t) (iblk m c 0 t) (iblk m c 1 t) (iblk m c 2 t) y
    = attnArr (m ((c : Thread nD τ).loc main_arg0)) (((cfg0.win 4).blk t).view.emb y)
  refine (out4_apply (grid0.coords t) (iblk m c 0 t) (iblk m c 1 t) (iblk m c 2 t) y).trans ?_
  obtain ⟨-, -, -, -, -, -, -, -, -, -, -, -, e0, e1, e2, eg⟩ := idx_facts t
  have hy0 : (y 0).val < 1 := (y 0).isLt
  have hy1 : (y 1).val < 256 := (y 1).isLt
  have hy2 : (y 2).val < 4096 := (y 2).isLt
  have hb0 := fun e => blk0 m c t ⟨(y 1).val, hy1⟩ e ⟨t.val / 16, tdiv_lt t⟩ ⟨t.val % 16 * 256 + (y 1).val, tmod_lt t _ hy1⟩ rfl rfl
  have hb1 := fun j e => blk1 m c t j e ⟨t.val / 16, tdiv_lt t⟩ rfl
  simp only [hb0, hb1]
  rw [eg]
  rw [attnArr_eq _ _ ⟨t.val / 16, tdiv_lt t⟩ ⟨t.val % 16 * 256 + (y 1).val, tmod_lt t _ hy1⟩ ⟨(y 2).val, hy2⟩
    (by show win0_4.index t (0 : Fin 3) * 1 + 1 * (y 0).val = t.val / 16; omega)
    (by show win0_4.index t (1 : Fin 3) * 256 + 1 * (y 1).val = t.val % 16 * 256 + (y 1).val; omega)
    (by show win0_4.index t (2 : Fin 3) * 4096 + 1 * (y 2).val = (y 2).val; omega)]
  rfl

/-- Point `t` writes back block `t` of the weights applied to the values. -/
theorem flushed3_eq (c : Dev nD) (t : Fin cfg0.N) :
    (dats m 0 c).flushed 3 t
      = ((cfg0.win 3).blk t).view.read (Elt Ideal)
          (outArr (m ((c : Thread nD τ).loc main_arg0)) (m ((c : Thread nD τ).loc main_arg1))) := by
  show (cfg0.win 3).cut (grid0.coords t) ((dats m 0 c).after 3 t) = _
  rw [after0_3]
  funext y
  show out0_3 (grid0.coords t) (iblk m c 0 t) (iblk m c 1 t) (iblk m c 2 t) y
    = outArr (m ((c : Thread nD τ).loc main_arg0)) (m ((c : Thread nD τ).loc main_arg1)) (((cfg0.win 3).blk t).view.emb y)
  refine (out3_apply (grid0.coords t) (iblk m c 0 t) (iblk m c 1 t) (iblk m c 2 t) y).trans ?_
  obtain ⟨-, -, -, -, -, -, -, -, -, e0, e1, e2, -, -, -, eg⟩ := idx_facts t
  have hy0 : (y 0).val < 1 := (y 0).isLt
  have hy1 : (y 1).val < 256 := (y 1).isLt
  have hy2 : (y 2).val < 64 := (y 2).isLt
  have hb0 := fun e => blk0 m c t ⟨(y 1).val, hy1⟩ e ⟨t.val / 16, tdiv_lt t⟩ ⟨t.val % 16 * 256 + (y 1).val, tmod_lt t _ hy1⟩ rfl rfl
  have hb1 := fun j e => blk1 m c t j e ⟨t.val / 16, tdiv_lt t⟩ rfl
  have hb2 := fun j e => blk2 m c t j e ⟨t.val / 16, tdiv_lt t⟩ rfl
  simp only [hb0, hb1, hb2]
  rw [eg]
  rw [outArr_eq _ _ _ ⟨t.val / 16, tdiv_lt t⟩ ⟨t.val % 16 * 256 + (y 1).val, tmod_lt t _ hy1⟩ ⟨(y 2).val, hy2⟩
    (by show win0_3.index t (0 : Fin 3) * 1 + 1 * (y 0).val = t.val / 16; omega)
    (by show win0_3.index t (1 : Fin 3) * 256 + 1 * (y 1).val = t.val % 16 * 256 + (y 1).val; omega)
    (by show win0_3.index t (2 : Fin 3) * 64 + 1 * (y 2).val = (y 2).val; omega)]
  rfl

/-! ## The blocks tile the arrays -/

theorem mem_blk4 (t : Fin cfg0.N) (i : S4x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v10_1).slice (win0_4.rect t)).set ↔ _
  rw [View.set_slice_whole, Rect.mem_set_unit]
  exact Iff.rfl

theorem mem_blk3 (t : Fin cfg0.N) (i : S4x4096x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v10_0).slice (win0_3.rect t)).set ↔ _
  rw [View.set_slice_whole, Rect.mem_set_unit]
  exact Iff.rfl

/-- Row `r` of batch `b` is in the block of the point of batch `b` and query tile `r / 256`. -/
theorem cover4 (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have ht' : t.val = (i 0).val * 16 + (i 1).val / 256 := ht
  obtain ⟨-, -, -, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

theorem cover3 (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have ht' : t.val = (i 0).val * 16 + (i 1).val / 256 := ht
  obtain ⟨-, -, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-! ## The arrays after the run, and the run -/

theorem final4 (c : Dev nD) :
    (dats m 0 c).arrAt 4 cfg0.N = attnArr (m ((c : Thread nD τ).loc main_arg0)) :=
  (dats m 0 c).arrAt_eq_of_cover 4 (attnArr (m ((c : Thread nD τ).loc main_arg0))) (fun t _ => flushed4_eq m c t) cover4

theorem final3 (c : Dev nD) :
    (dats m 0 c).arrAt 3 cfg0.N = outArr (m ((c : Thread nD τ).loc main_arg0)) (m ((c : Thread nD τ).loc main_arg1)) :=
  (dats m 0 c).arrAt_eq_of_cover 3 (outArr (m ((c : Thread nD τ).loc main_arg0)) (m ((c : Thread nD τ).loc main_arg1)))
    (fun t _ => flushed3_eq m c t) cover3

/-- Every weakly fair execution of the kernel's program terminates with the first result at the weights applied to the
    values and the second at the weights, as functions of the two argument arrays, which end unchanged. -/
theorem run : θ_run defs (onTc (τ := τ) (main (F := Ideal))) ⟨m, fun _ => 0, ρ⟩ fun r => ∀ c : Dev nD,
      r.2.mem ((c : Thread nD τ).loc main_v10_0) = outArr (m ((c : Thread nD τ).loc main_arg0)) (m ((c : Thread nD τ).loc main_arg1))
      ∧ r.2.mem ((c : Thread nD τ).loc main_v10_1) = attnArr (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m c), ((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.KVal

end
-- ==== Proof.LibScatterSet.lean ====
/-
  A scatter whose body returns the update (a "set"), read at an index, when every update that lands on the index carries
  the same value.

  The host's scatter is a left fold over the update indices in row-major order; each step overwrites the element at the
  update's result index, when that index is inside the operand. When all the updates that land on an index `i` carry one
  value `v`, the order of the fold does not matter at `i`: the result there is `v` if some update lands on `i` and the
  operand's element otherwise. No injectivity of the scatter indices is needed.
-/
import Idealize.ShloMosaic.PureOps.ShapeOps
import Idealize.ShloMosaic.PureOps.Dims

namespace Cert.LibScatterSet

open Idealize.ShloMosaic

open Classical in
/-- A left fold of a step that overwrites the element at `g n` with `val n` when `g n` is some index and does nothing
    otherwise, read at `i`: when every step that lands on `i` writes the same `v`, the result at `i` is `v` if some step
    lands on `i`, and the start's element otherwise. -/
theorem foldl_set_apply {ι κ α : Type} (g : κ → Option ι) (val : κ → α) (step : (ι → α) → κ → ι → α)
    (hsome : ∀ r n i₀, g n = some i₀ → step r n i₀ = val n ∧ ∀ i', i' ≠ i₀ → step r n i' = r i')
    (hnone : ∀ r n, g n = none → step r n = r) (v : α) (i : ι) :
    ∀ (l : List κ) (x : ι → α), (∀ n ∈ l, g n = some i → val n = v) →
      (l.foldl step x) i = if ∃ n ∈ l, g n = some i then v else x i
  | [], x, _ => by simp
  | a :: l, x, h => by
    rw [List.foldl_cons, foldl_set_apply g val step hsome hnone v i l _ (fun n hn => h n (List.mem_cons_of_mem _ hn))]
    by_cases hl : ∃ n ∈ l, g n = some i
    · rw [if_pos hl, if_pos (by obtain ⟨n, hn, e⟩ := hl; exact ⟨n, List.mem_cons_of_mem _ hn, e⟩)]
    · rw [if_neg hl]
      by_cases ha : g a = some i
      · rw [if_pos ⟨a, List.mem_cons_self, ha⟩, (hsome x a i ha).1]
        exact h a List.mem_cons_self ha
      · rw [if_neg (by
          rintro ⟨n, hn, e⟩
          rcases List.mem_cons.1 hn with rfl | hn'
          · exact ha e
          · exact hl ⟨n, hn', e⟩)]
        cases hg : g a with
        | none => rw [hnone x a hg]
        | some i₀ => exact (hsome x a i₀ hg).2 i (fun e => ha (by rw [hg, e]))

open Classical in
/-- THE SCATTER-SET READ AT AN INDEX. `Host.scatter` with the body "return the update", at an index `i` such that every
    update index whose result index is `i` carries the value `v`: the result is `v` when some update index lands on `i`,
    and the operand's element at `i` when none does. -/
theorem scatter_set_apply {s si u : Shape} {w : Nat} {α : Type} (d : ScatterDims s si u) (x : s.Idx → α)
    (idx : IVec si w) (upd : u.Idx → α) (v : α) (i : s.Idx)
    (h : ∀ j : u.Idx, d.resultIdx? j idx = some i → upd j = v) :
    Host.scatter d (fun _ b => b) x idx upd i = if ∃ j : u.Idx, d.resultIdx? j idx = some i then v else x i := by
  unfold Host.scatter
  refine (foldl_set_apply (fun n : Fin u.numel => d.resultIdx? (u.rowMajor.symm n) idx)
    (fun n => upd (u.rowMajor.symm n)) _ ?_ ?_ v i (List.finRange u.numel) x (fun n _ e => h _ e)).trans ?_
  · intro r n i₀ e
    have e' : d.resultIdx? (u.rowMajor.symm n) idx = some i₀ := e
    constructor
    · show (match d.resultIdx? (u.rowMajor.symm n) idx with
        | some i => fun i' => if i' = i then (fun (_ : α) (b : α) => b) (r i) (upd (u.rowMajor.symm n)) else r i'
        | none => r) i₀ = _
      rw [e']
      exact if_pos rfl
    · intro i' hi'
      show (match d.resultIdx? (u.rowMajor.symm n) idx with
        | some i => fun i' => if i' = i then (fun (_ : α) (b : α) => b) (r i) (upd (u.rowMajor.symm n)) else r i'
        | none => r) i' = _
      rw [e']
      exact if_neg hi'
  · intro r n e
    have e' : d.resultIdx? (u.rowMajor.symm n) idx = none := e
    show (match d.resultIdx? (u.rowMajor.symm n) idx with
      | some i => fun i' => if i' = i then (fun (_ : α) (b : α) => b) (r i) (upd (u.rowMajor.symm n)) else r i'
      | none => r) = _
    rw [e']
  · have hiff : (∃ n ∈ List.finRange u.numel, d.resultIdx? (u.rowMajor.symm n) idx = some i)
        ↔ ∃ j : u.Idx, d.resultIdx? j idx = some i := by
      constructor
      · rintro ⟨n, _, e⟩; exact ⟨_, e⟩
      · rintro ⟨j, e⟩
        exact ⟨u.rowMajor j, List.mem_finRange _, by rw [Equiv.symm_apply_apply]; exact e⟩
    by_cases hj : ∃ j : u.Idx, d.resultIdx? j idx = some i
    · rw [if_pos hj, if_pos (hiff.2 hj)]
    · rw [if_neg hj, if_neg (fun hn => hj (hiff.1 hn))]

/-- The scatter-set at an index some update lands on, all the updates that land there carrying `v`: it is `v`. -/
theorem scatter_set_apply_hit {s si u : Shape} {w : Nat} {α : Type} (d : ScatterDims s si u) (x : s.Idx → α)
    (idx : IVec si w) (upd : u.Idx → α) (v : α) (i : s.Idx)
    (h : ∀ j : u.Idx, d.resultIdx? j idx = some i → upd j = v) (j₀ : u.Idx) (hj₀ : d.resultIdx? j₀ idx = some i) :
    Host.scatter d (fun _ b => b) x idx upd i = v := by
  rw [scatter_set_apply d x idx upd v i h, if_pos ⟨j₀, hj₀⟩]

/-- The scatter-set at an index no update lands on: the operand's element. -/
theorem scatter_set_apply_miss {s si u : Shape} {w : Nat} {α : Type} (d : ScatterDims s si u) (x : s.Idx → α)
    (idx : IVec si w) (upd : u.Idx → α) (i : s.Idx)
    (h : ∀ j : u.Idx, d.resultIdx? j idx ≠ some i) :
    Host.scatter d (fun _ b => b) x idx upd i = x i := by
  rw [scatter_set_apply d x idx upd (x i) i (fun j e => absurd e (h j)), if_neg (fun ⟨j, e⟩ => h j e)]

end Cert.LibScatterSet
-- ==== Proof.RefMasked.lean ====
/-
  The reference program's masked scores read at an index.

  The reference normalises each key row by its clamped norm, takes the dot products of the query rows with the
  normalised key rows and scales them by 1/8; it then overwrites the diagonal with -50000 by a scatter whose index
  rows are (r, r), and selects the most negative finite float strictly above the diagonal by a mask built from two
  iotas. Read at (b, p, q) this is the specification's `masked`.
-/
import proofs.«144197_j12713103196750_2_alg».proof.Proof.RefRead
import proofs.«144197_j12713103196750_2_alg».proof.Proof.SpecRows
import proofs.«144197_j12713103196750_2_alg».proof.Proof.LibScatterSet
import Idealize.ShloMosaic.Lib.KernelVsHost

noncomputable section

namespace Cert.ReferenceIdeal.RefMasked

open Cert.ReferenceIdeal Cert.ReferenceIdeal.Gen Cert.ReferenceIdeal.ReadP Idealize.ShloMosaic Idealize.ShloMosaic.ValueIdx
open Cert.Attn Cert.LibScatterSet

/-! ## The scores -/
/-- The normalised key row, as the reference computes it: the array over the broadcast of the clamped norm. -/
theorem v4_at (x0 : (⟨S4x4096x64, .f32⟩ : BufTy).Contents (Elt Ideal)) (b : Fin 4) (q : Fin 4096) (e : Fin 64) :
    val_main_v4 (F := Ideal) x0 (ix3 b q e) = kn (arr3 x0) b q e := by
  rw [val_main_v4_apply, val_main_v3_apply, val_main_v2_apply, val_main_v0_apply, val_main_call0_v2_apply,
    val_main_call0_v1_apply, val_main_v1_apply, val_main_cst_apply, val_main_call0_cst_apply]
  simp only [Ideal.hostDivf_def, Ideal.maximumf_def, Ideal.hostUnary_sqrt_def, Ideal.ofBits_def, Ideal.ofBits_zero_f32, zero_add]
  unfold kn nrm sumsq arr3
  refine congrArg (Ideal.div _) (congrArg (fun t => max (Ideal.sqrt t) _) (Finset.sum_congr rfl fun k _ => ?_))
  rw [val_main_call0_v0_apply, Ideal.mulf_def]
  have hk : idx_main_call0_v1 (idx_main_call0_v2 (idx_main_v3 (ix3 b q e))) k = ix3 b q k :=
    funext fun a => match a with | ⟨0, _⟩ => rfl | ⟨1, _⟩ => rfl | ⟨2, _⟩ => rfl
  rw [hk]

/-- The scaled scores, as the reference computes them. -/
theorem v7_at (x0 : (⟨S4x4096x64, .f32⟩ : BufTy).Contents (Elt Ideal)) (b : Fin 4) (p q : Fin 4096) :
    val_main_v7 (F := Ideal) x0 (ix3 b p q) = score (arr3 x0) b p q := by
  rw [val_main_v7_apply, val_main_v5_apply, val_main_v6_apply, val_main_cst_0_apply]
  simp only [Ideal.mulf_def, Ideal.ofBits_def]
  unfold score
  refine congrArg (· * _) (Finset.sum_congr rfl fun k _ => ?_)
  have hl : lidx_main_v5 (ix3 b p q) k = ix3 b p k :=
    funext fun a => match a with | ⟨0, _⟩ => rfl | ⟨1, _⟩ => rfl | ⟨2, _⟩ => rfl
  have hr : ridx_main_v5 (ix3 b p q) k = ix3 b q k :=
    funext fun a => match a with | ⟨0, _⟩ => rfl | ⟨1, _⟩ => rfl | ⟨2, _⟩ => rfl
  rw [hl, hr, v4_at]
  rfl

/-! ## Words -/

/-- A 32-bit word made of a natural below 4096 reads back, signed, as that natural. -/
theorem toInt_ofNat_small (r : Nat) (h : r < 4096) : (BitVec.ofNat 32 r).toInt = (r : Int) := by
  rw [BitVec.toInt_eq_toNat_of_lt (by rw [BitVec.toNat_ofNat, Nat.mod_eq_of_lt (by omega)]; omega),
    BitVec.toNat_ofNat, Nat.mod_eq_of_lt (by omega)]

/-- Such a word is not negative. -/
theorem slt_zero (r : Nat) (h : r < 4096) : IntOp.cmpi .slt (BitVec.ofNat 32 r) 0#32 = 0#1 := by
  have hn : ¬ ((BitVec.ofNat 32 r).toInt < (0#32 : BitVec 32).toInt) := by
    rw [toInt_ofNat_small r h]; simp
  unfold IntOp.cmpi
  simp only [BitVec.slt, decide_eq_false hn]
  rfl

/-- The signed "at least" of two such words is that of the naturals. -/
theorem sge_small (p q : Nat) (hp : p < 4096) (hq : q < 4096) :
    IntOp.cmpi .sge (BitVec.ofNat 32 p) (BitVec.ofNat 32 q) = if q ≤ p then 1#1 else 0#1 := by
  unfold IntOp.cmpi
  simp only [BitVec.sle, toInt_ofNat_small p hp, toInt_ofNat_small q hq, Nat.cast_le]
  by_cases h : q ≤ p
  · rw [if_pos h, decide_eq_true h]; rfl
  · rw [if_neg h, decide_eq_false h]; rfl

/-! ## The scatter indices: row `r` of the index array is `(r, r)` -/

/-- The first index column before its broadcast: the iota, which is never negative and so never wrapped. -/
theorem v13_at (r : Fin 4096) : val_main_v13 (F := Ideal) (ix1 r) = BitVec.ofNat 32 r.val := by
  rw [val_main_v13_apply, val_main_v10_apply, val_main_v8_apply, val_main_v9_apply, val_main_c_apply]
  show Scalar.select (IntOp.cmpi .slt (BitVec.ofNat 32 r.val) 0#32) _ (BitVec.ofNat 32 r.val) = _
  rw [slt_zero r.val r.isLt, select_zero]

/-- The second index column before its broadcast: the same iota. -/
theorem v18_at (r : Fin 4096) : val_main_v18 (F := Ideal) (ix1 r) = BitVec.ofNat 32 r.val := by
  rw [val_main_v18_apply, val_main_v15_apply, val_main_v8_apply, val_main_v14_apply, val_main_c_2_apply]
  show Scalar.select (IntOp.cmpi .slt (BitVec.ofNat 32 r.val) 0#32) _ (BitVec.ofNat 32 r.val) = _
  rw [slt_zero r.val r.isLt, select_zero]

/-- Both entries of row `r` of the index array are `r`. -/
theorem v21_at (r : Fin 4096) (c : Fin 2) : (val_main_v21 (F := Ideal) (ix2 r c)).toInt = (r.val : Int) := by
  have h19 : val_main_v19 (F := Ideal) (ix2 r (0 : Fin 1)) = BitVec.ofNat 32 r.val := by
    rw [val_main_v19_apply]
    have e : idx_main_v19 (ix2 r (0 : Fin 1)) = ix1 r := funext fun a => match a with | ⟨0, _⟩ => rfl
    rw [e, v13_at]
  have h20 : val_main_v20 (F := Ideal) (ix2 r (0 : Fin 1)) = BitVec.ofNat 32 r.val := by
    rw [val_main_v20_apply]
    have e : idx_main_v20 (ix2 r (0 : Fin 1)) = ix1 r := funext fun a => match a with | ⟨0, _⟩ => rfl
    rw [e, v18_at]
  match c with
  | ⟨0, _⟩ =>
    have e : val_main_v21 (F := Ideal) (ix2 r (⟨0, by decide⟩ : Fin 2)) = val_main_v19 (F := Ideal) (ix2 r (0 : Fin 1)) := by
      unfold val_main_v21
      refine concatenate_pair_apply_left (t := S4096x2) (s₁ := S4096x1) (s₂ := S4096x1) (1 : Fin S4096x2.rank) _ _ _
        (ix2 r (⟨0, by decide⟩ : Fin 2)) rfl (ix2 r (0 : Fin 1)) ?_
      intro b
      match b with
      | ⟨0, _⟩ => rfl
      | ⟨1, _⟩ => rfl
    rw [e, h19, toInt_ofNat_small r.val r.isLt]
  | ⟨1, _⟩ =>
    have e : val_main_v21 (F := Ideal) (ix2 r (⟨1, by decide⟩ : Fin 2)) = val_main_v20 (F := Ideal) (ix2 r (0 : Fin 1)) := by
      unfold val_main_v21
      refine concatenate_pair_apply_right (t := S4096x2) (s₁ := S4096x1) (s₂ := S4096x1) (1 : Fin S4096x2.rank) _ _ _
        (ix2 r (⟨1, by decide⟩ : Fin 2)) rfl rfl (ix2 r (0 : Fin 1)) ?_ rfl
      intro b
      match b with
      | ⟨0, _⟩ => exact fun _ => rfl
      | ⟨1, _⟩ => exact fun hb => absurd rfl hb
    rw [e, h20, toInt_ofNat_small r.val r.isLt]

/-! ## The scatter's result indices -/

/-- Update index `(b, r)` lands on `(b, r, r)`: axis 0 is the window's, axes 1 and 2 start at the two entries of index
    row `r`, both `r`. -/
theorem resultIdx_ix2 (idx : IVec S4096x2 32)
    (hidx : ∀ (r : Fin 4096) (c : Fin 2), (idx (ix2 r c)).toInt = (r.val : Int)) (b : Fin 4) (r : Fin 4096) :
    scatter_S4x4096x4096_S4096x2_S4x4096_0_12_12_1.resultIdx? (ix2 b r) idx = some (ix3 b r r) := by
  have hs0 : scatter_S4x4096x4096_S4096x2_S4x4096_0_12_12_1.start (ix2 b r) idx 0 = 0 := by
    unfold ScatterDims.start
    rw [dif_neg (show ¬ (0 : Fin S4x4096x4096.rank) ∈ scatter_S4x4096x4096_S4096x2_S4x4096_0_12_12_1.scatterDimsToOperandDims by decide)]
  have hs1 : scatter_S4x4096x4096_S4096x2_S4x4096_0_12_12_1.start (ix2 b r) idx 1 = (r.val : Int) := by
    unfold ScatterDims.start
    rw [dif_pos (show (1 : Fin S4x4096x4096.rank) ∈ scatter_S4x4096x4096_S4096x2_S4x4096_0_12_12_1.scatterDimsToOperandDims by decide)]
    have hsi : scatter_S4x4096x4096_S4096x2_S4x4096_0_12_12_1.siIdx (ix2 b r)
        ⟨List.idxOf (1 : Fin S4x4096x4096.rank) scatter_S4x4096x4096_S4096x2_S4x4096_0_12_12_1.scatterDimsToOperandDims,
          List.idxOf_lt_length_iff.2 (by decide)⟩ = ix2 r (0 : Fin 2) := by
      funext a; refine Fin.ext ?_
      match a with
      | ⟨0, _⟩ => rfl
      | ⟨1, _⟩ => rfl
    rw [hsi]; exact hidx r 0
  have hs2 : scatter_S4x4096x4096_S4096x2_S4x4096_0_12_12_1.start (ix2 b r) idx 2 = (r.val : Int) := by
    unfold ScatterDims.start
    rw [dif_pos (show (2 : Fin S4x4096x4096.rank) ∈ scatter_S4x4096x4096_S4096x2_S4x4096_0_12_12_1.scatterDimsToOperandDims by decide)]
    have hsi : scatter_S4x4096x4096_S4096x2_S4x4096_0_12_12_1.siIdx (ix2 b r)
        ⟨List.idxOf (2 : Fin S4x4096x4096.rank) scatter_S4x4096x4096_S4096x2_S4x4096_0_12_12_1.scatterDimsToOperandDims,
          List.idxOf_lt_length_iff.2 (by decide)⟩ = ix2 r (1 : Fin 2) := by
      funext a; refine Fin.ext ?_
      match a with
      | ⟨0, _⟩ => rfl
      | ⟨1, _⟩ => rfl
    rw [hsi]; exact hidx r 1
  have hw0 : scatter_S4x4096x4096_S4096x2_S4x4096_0_12_12_1.window (ix2 b r) 0 = b.val := by
    unfold ScatterDims.window
    rw [dif_pos (show (0 : Fin S4x4096x4096.rank) ∈ scatter_S4x4096x4096_S4096x2_S4x4096_0_12_12_1.sKept by decide)]
    rfl
  have hw1 : scatter_S4x4096x4096_S4096x2_S4x4096_0_12_12_1.window (ix2 b r) 1 = 0 := by
    unfold ScatterDims.window
    rw [dif_neg (show ¬ (1 : Fin S4x4096x4096.rank) ∈ scatter_S4x4096x4096_S4096x2_S4x4096_0_12_12_1.sKept by decide)]
  have hw2 : scatter_S4x4096x4096_S4096x2_S4x4096_0_12_12_1.window (ix2 b r) 2 = 0 := by
    unfold ScatterDims.window
    rw [dif_neg (show ¬ (2 : Fin S4x4096x4096.rank) ∈ scatter_S4x4096x4096_S4096x2_S4x4096_0_12_12_1.sKept by decide)]
  have hb := b.isLt
  have hr := r.isLt
  have hall : ∀ a, 0 ≤ scatter_S4x4096x4096_S4096x2_S4x4096_0_12_12_1.start (ix2 b r) idx a
        + scatter_S4x4096x4096_S4096x2_S4x4096_0_12_12_1.window (ix2 b r) a
      ∧ scatter_S4x4096x4096_S4096x2_S4x4096_0_12_12_1.start (ix2 b r) idx a
        + scatter_S4x4096x4096_S4096x2_S4x4096_0_12_12_1.window (ix2 b r) a < S4x4096x4096.size a := by
    intro a
    match a with
    | ⟨0, _⟩ =>
      show 0 ≤ scatter_S4x4096x4096_S4096x2_S4x4096_0_12_12_1.start (ix2 b r) idx 0
          + (scatter_S4x4096x4096_S4096x2_S4x4096_0_12_12_1.window (ix2 b r) 0 : Int)
        ∧ scatter_S4x4096x4096_S4096x2_S4x4096_0_12_12_1.start (ix2 b r) idx 0
          + (scatter_S4x4096x4096_S4096x2_S4x4096_0_12_12_1.window (ix2 b r) 0 : Int) < ((4 : Nat) : Int)
      rw [hs0, hw0]; omega
    | ⟨1, _⟩ =>
      show 0 ≤ scatter_S4x4096x4096_S4096x2_S4x4096_0_12_12_1.start (ix2 b r) idx 1
          + (scatter_S4x4096x4096_S4096x2_S4x4096_0_12_12_1.window (ix2 b r) 1 : Int)
        ∧ scatter_S4x4096x4096_S4096x2_S4x4096_0_12_12_1.start (ix2 b r) idx 1
          + (scatter_S4x4096x4096_S4096x2_S4x4096_0_12_12_1.window (ix2 b r) 1 : Int) < ((4096 : Nat) : Int)
      rw [hs1, hw1]; omega
    | ⟨2, _⟩ =>
      show 0 ≤ scatter_S4x4096x4096_S4096x2_S4x4096_0_12_12_1.start (ix2 b r) idx 2
          + (scatter_S4x4096x4096_S4096x2_S4x4096_0_12_12_1.window (ix2 b r) 2 : Int)
        ∧ scatter_S4x4096x4096_S4096x2_S4x4096_0_12_12_1.start (ix2 b r) idx 2
          + (scatter_S4x4096x4096_S4096x2_S4x4096_0_12_12_1.window (ix2 b r) 2 : Int) < ((4096 : Nat) : Int)
      rw [hs2, hw2]; omega
  unfold ScatterDims.resultIdx?
  rw [dif_pos hall]
  refine congrArg some (funext fun a => Fin.ext ?_)
  match a with
  | ⟨0, _⟩ =>
    show (scatter_S4x4096x4096_S4096x2_S4x4096_0_12_12_1.start (ix2 b r) idx 0
        + (scatter_S4x4096x4096_S4096x2_S4x4096_0_12_12_1.window (ix2 b r) 0 : Int)).toNat = b.val
    rw [hs0, hw0]; omega
  | ⟨1, _⟩ =>
    show (scatter_S4x4096x4096_S4096x2_S4x4096_0_12_12_1.start (ix2 b r) idx 1
        + (scatter_S4x4096x4096_S4096x2_S4x4096_0_12_12_1.window (ix2 b r) 1 : Int)).toNat = r.val
    rw [hs1, hw1]; omega
  | ⟨2, _⟩ =>
    show (scatter_S4x4096x4096_S4096x2_S4x4096_0_12_12_1.start (ix2 b r) idx 2
        + (scatter_S4x4096x4096_S4096x2_S4x4096_0_12_12_1.window (ix2 b r) 2 : Int)).toNat = r.val
    rw [hs2, hw2]; omega

/-- The scores with the diagonal overwritten. -/
theorem v23_at (x0 : (⟨S4x4096x64, .f32⟩ : BufTy).Contents (Elt Ideal)) (b : Fin 4) (p q : Fin 4096) :
    val_main_v23 (F := Ideal) x0 (ix3 b p q)
      = if p.val = q.val then Ideal.ofBits .f32 0xC7435000#32 else score (arr3 x0) b p q := by
  have hupd : ∀ j : S4x4096.Idx, val_main_v22 (F := Ideal) j = Ideal.ofBits .f32 0xC7435000#32 := fun j => by
    rw [val_main_v22_apply, val_main_cst_4_apply]; rfl
  have hres := resultIdx_ix2 (val_main_v21 (F := Ideal)) v21_at
  unfold val_main_v23
  by_cases hpq : p.val = q.val
  · rw [if_pos hpq]
    have e : q = p := Fin.ext hpq.symm
    subst e
    exact scatter_set_apply_hit _ _ _ _ _ _ (fun j _ => hupd j) (ix2 b q) (hres b q)
  · rw [if_neg hpq, ← v7_at]
    refine scatter_set_apply_miss _ _ _ _ _ (fun j hj => ?_)
    have hj' : ∃ (b' : Fin 4) (r' : Fin 4096), j = ix2 b' r' := ⟨j 0, j 1, eq_ix2 j⟩
    obtain ⟨b', r', rfl⟩ := hj'
    rw [hres] at hj
    have h3 := Option.some.inj hj
    have h1 : r'.val = p.val := congrArg Fin.val (congrFun h3 (1 : Fin 3))
    have h2 : r'.val = q.val := congrArg Fin.val (congrFun h3 (2 : Fin 3))
    exact hpq (h1.symm.trans h2)

/-! ## The mask -/

/-- The mask is set strictly above the diagonal. -/
theorem mask_at (b : Fin 4) (p q : Fin 4096) :
    val_main_call3_v0 (F := Ideal) (ix3 b p q) = if q.val ≤ p.val then 0#1 else 1#1 := by
  rw [val_main_call3_v0_apply, val_main_v27_apply]
  have e : idx_main_v27 (idx_main_call3_v0 (ix3 b p q)) = ix2 p q :=
    funext fun a => match a with | ⟨0, _⟩ => rfl | ⟨1, _⟩ => rfl
  rw [e]
  have hpad : val_main_v26 (F := Ideal) (ix2 p q) = val_main_v25 (F := Ideal) (ix2 p q) := by
    unfold val_main_v26
    exact pad_apply_of_inside _ _ _ _ _ _ _ (ix2 p q) (ix2 p q) (fun a => match a with
      | ⟨0, _⟩ => by show p.val = 0 + p.val * (0 + 1); omega
      | ⟨1, _⟩ => by show q.val = 0 + q.val * (0 + 1); omega)
  rw [hpad, val_main_v25_apply, val_main_call1_v4_apply, val_main_call1_v2_apply, val_main_call1_v0_apply,
    val_main_call1_v1_apply, val_main_call1_c_apply, val_main_call1_v3_apply, val_main_call1_v5_apply,
    val_main_call1_c_0_apply, val_main_v24_apply, val_main_c_5_apply]
  show Scalar.select (IntOp.cmpi .sge (IntOp.addi (BitVec.ofNat 32 p.val) 0#32) (BitVec.ofNat 32 q.val)) 0#1 1#1 = _
  have hadd : IntOp.addi (BitVec.ofNat 32 p.val) 0#32 = BitVec.ofNat 32 p.val := by
    unfold IntOp.addi; exact BitVec.add_zero _
  rw [hadd, sge_small p.val q.val p.isLt q.isLt]
  by_cases h : q.val ≤ p.val
  · rw [if_pos h, select_one, if_pos h]
  · rw [if_neg h, select_zero, if_neg h]

/-! ## The masked scores -/

/-- THE REFERENCE'S MASKED SCORES AT `(b, p, q)` are the specification's. -/
theorem ref_masked (x0 : (⟨S4x4096x64, .f32⟩ : BufTy).Contents (Elt Ideal)) (b : Fin 4) (p q : Fin 4096) :
    Cert.ReferenceIdeal.ReadP.val_main_v28 (F := Ideal) x0 (ValueIdx.ix3 b p q) = Cert.Attn.masked (Cert.Attn.arr3 x0) b p q := by
  rw [val_main_v28_apply, mask_at, v23_at, val_main_call3_v1_apply, val_main_cst_7_apply]
  unfold masked
  by_cases h : p.val < q.val
  · rw [if_neg (by omega), select_one, if_pos h]; rfl
  · rw [if_pos (by omega), select_zero, if_neg h]

end Cert.ReferenceIdeal.RefMasked

end
-- ==== Proof.RefSoftmax.lean ====
/-
  The reference program's softmax and its product with the values, read at an index, given the masked scores.

  With the masked scores of row (b, p) known to be the specification's, the row maximum is the fold of `max` from
  `-∞` over the row (the further `max` with `-∞` changes nothing: a fold of `max` is at least its initial value), the
  exponentials are those of the differences, their sum is the row's denominator, the weight is one division, and the
  output is the row of weights against a column of values.
-/
import proofs.«144197_j12713103196750_2_alg».proof.Proof.RefRead
import proofs.«144197_j12713103196750_2_alg».proof.Proof.SpecRows

noncomputable section

namespace Cert.ReferenceIdeal.RefSoftmax

open Cert.ReferenceIdeal Cert.ReferenceIdeal.Gen Cert.ReferenceIdeal.ReadP Idealize.ShloMosaic Idealize.ShloMosaic.ValueIdx
open Cert.Attn

/-- A fold of `max` is at least its initial value, so a further `max` with that value changes nothing. -/
theorem max_fold_max_init {ι : Type} (s : Finset ι) (c : EReal) (f : ι → EReal) :
    max c (s.fold max c f) = s.fold max c f :=
  max_eq_right ((Finset.le_fold_max c).2 (Or.inl le_rfl))

/-- The hypothesis on the masked scores, as a name. -/
abbrev MaskedOk (x0 : (⟨S4x4096x64, .f32⟩ : BufTy).Contents (Elt Ideal)) : Prop :=
  ∀ (b : Fin 4) (p q : Fin 4096),
    val_main_v28 (F := Ideal) x0 (ix3 b p q) = masked (arr3 x0) b p q

/-- The reduction over the last axis is the row's fold of `max` from `-∞`. -/
theorem ref_v29 (x0 : (⟨S4x4096x64, .f32⟩ : BufTy).Contents (Elt Ideal)) (hm : MaskedOk x0) (b : Fin 4) (p : Fin 4096) :
    val_main_v29 (F := Ideal) x0 (ix2 b p) = rowMax (fun j => masked (arr3 x0) b p j) := by
  unfold val_main_v29
  generalize hy : val_main_v28 (F := Ideal) x0 = y
  have h : S4x4096x4096.Reduces [2] S4x4096 := by decide
  refine (Host.reduce_eq_fold_single (FloatOps.maximumf (F := Ideal) (φ := .f32)) y (val_main_cst_8 (F := Ideal))
    reducesTo_S4x4096x4096_S4x4096_d2 h h_S_ (ix2 b p)).trans ?_
  unfold rowMax
  refine Finset.fold_congr fun j _ => ?_
  show y (h.lift (ix2 b p) j) = _
  have e : h.lift (ix2 b p) j = ix3 b p j :=
    funext fun a => Fin.ext (by match a with | ⟨0, _⟩ => rfl | ⟨1, _⟩ => rfl | ⟨2, _⟩ => rfl)
  subst hy
  exact (congrArg _ e).trans (hm b p j)

/-- The row maximum after the further `max` with `-∞`. -/
theorem ref_v31 (x0 : (⟨S4x4096x64, .f32⟩ : BufTy).Contents (Elt Ideal)) (hm : MaskedOk x0) (b : Fin 4) (p : Fin 4096) :
    val_main_v31 (F := Ideal) x0 (ix2 b p) = rowMax (fun j => masked (arr3 x0) b p j) := by
  rw [val_main_v31_apply, val_main_v30_apply, val_main_cst_9_apply, ref_v29 x0 hm b p]
  exact max_fold_max_init _ _ _

/-- The exponential of a masked score less its row's maximum. -/
theorem ref_v35 (x0 : (⟨S4x4096x64, .f32⟩ : BufTy).Contents (Elt Ideal)) (hm : MaskedOk x0) (b : Fin 4) (p q : Fin 4096) :
    val_main_v35 (F := Ideal) x0 (ix3 b p q) = rowExp (fun j => masked (arr3 x0) b p j) q := by
  have e : idx_main_v32 (idx_main_v33 (ix3 b p q)) = ix2 b p :=
    funext fun a => Fin.ext (by match a with | ⟨0, _⟩ => rfl | ⟨1, _⟩ => rfl)
  rw [val_main_v35_apply, val_main_v34_apply, val_main_v33_apply, val_main_v32_apply, e, ref_v31 x0 hm b p, hm b p q]
  rfl

/-- The sum of a row of those exponentials. -/
theorem ref_v36 (x0 : (⟨S4x4096x64, .f32⟩ : BufTy).Contents (Elt Ideal)) (hm : MaskedOk x0) (b : Fin 4) (p : Fin 4096) :
    val_main_v36 (F := Ideal) x0 (ix2 b p) = ∑ j : Fin 4096, rowExp (fun j => masked (arr3 x0) b p j) j := by
  rw [val_main_v36_apply, val_main_cst_10_apply]
  refine (congrArg (· + _) Ideal.ofBits_zero_f32).trans ?_
  rw [zero_add]
  refine Finset.sum_congr rfl fun k _ => ?_
  have e : idx_main_v36 (ix2 b p) k = ix3 b p k :=
    funext fun a => Fin.ext (by match a with | ⟨0, _⟩ => rfl | ⟨1, _⟩ => rfl | ⟨2, _⟩ => rfl)
  rw [e]
  exact ref_v35 x0 hm b p k

/-- The attention weight: one division of the exponential by the row's sum. -/
theorem ref_attn (x0 : (⟨S4x4096x64, .f32⟩ : BufTy).Contents (Elt Ideal))
    (hm : ∀ (b : Fin 4) (p q : Fin 4096), Cert.ReferenceIdeal.ReadP.val_main_v28 (F := Ideal) x0 (ValueIdx.ix3 b p q) = Cert.Attn.masked (Cert.Attn.arr3 x0) b p q)
    (b : Fin 4) (p q : Fin 4096) :
    Cert.ReferenceIdeal.ReadP.val_main_v39 (F := Ideal) x0 (ValueIdx.ix3 b p q) = Cert.Attn.attnDiv (Cert.Attn.arr3 x0) b p q := by
  have e : idx_main_v37 (idx_main_v38 (ix3 b p q)) = ix2 b p :=
    funext fun a => Fin.ext (by match a with | ⟨0, _⟩ => rfl | ⟨1, _⟩ => rfl)
  rw [val_main_v39_apply, val_main_v38_apply, val_main_v37_apply, e, ref_v35 x0 hm b p q, ref_v36 x0 hm b p]
  exact (congrFun (attnDiv_eq (arr3 x0) b p) q).symm

/-- The output: the row of attention weights against a column of the values. -/
theorem ref_out (x0 x1 : (⟨S4x4096x64, .f32⟩ : BufTy).Contents (Elt Ideal))
    (hm : ∀ (b : Fin 4) (p q : Fin 4096), Cert.ReferenceIdeal.ReadP.val_main_v28 (F := Ideal) x0 (ValueIdx.ix3 b p q) = Cert.Attn.masked (Cert.Attn.arr3 x0) b p q)
    (b : Fin 4) (p : Fin 4096) (e : Fin 64) :
    Cert.ReferenceIdeal.ReadP.val_main_v40 (F := Ideal) x0 x1 (ValueIdx.ix3 b p e) = Cert.Attn.outOf (Cert.Attn.attnDiv (Cert.Attn.arr3 x0)) (Cert.Attn.arr3 x1) b p e := by
  rw [val_main_v40_apply]
  refine Finset.sum_congr rfl fun k _ => ?_
  have el : lidx_main_v40 (ix3 b p e) k = ix3 b p k :=
    funext fun a => Fin.ext (by match a with | ⟨0, _⟩ => rfl | ⟨1, _⟩ => rfl | ⟨2, _⟩ => rfl)
  have er : ridx_main_v40 (ix3 b p e) k = ix3 b k e :=
    funext fun a => Fin.ext (by match a with | ⟨0, _⟩ => rfl | ⟨1, _⟩ => rfl | ⟨2, _⟩ => rfl)
  rw [el, er, ref_attn x0 hm b p k]
  rfl

end Cert.ReferenceIdeal.RefSoftmax

end
-- ==== Proof.SoftmaxLaw.lean ====
/-
  The two ways of writing the attention weight — the exponential times the reciprocal of the row sum,
  and the exponential divided by the row sum — agree whenever every entry of the input is a real.

  The only point where they could differ is a zero row sum: `x / 0` is an infinity or junk, while
  `x * (1 / 0)` is `x * ⊤`.  So the work is to show that the row sum is never zero.  Every quantity on the
  way is shown to be a real: the sum of squares is a real that is not negative, so its square root is a
  real; the norm is the larger of that root and a positive literal, hence a positive real; the normalised
  key, the score and the masked score are reals; the row's maximum is the largest of finitely many reals
  (the row is not empty); the differences are reals, their exponentials are positive reals, and a sum of
  positive reals over a non-empty row is a positive real.
-/
import proofs.«144197_j12713103196750_2_alg».proof.Proof.Spec

noncomputable section

namespace Cert.Attn

open Idealize.ShloMosaic

/-- An extended real that is a real. -/
def IsFin (x : EReal) : Prop := ∃ r : ℝ, x = (r : EReal)

/-- An extended real that is a positive real. -/
def IsPos (x : EReal) : Prop := ∃ r : ℝ, 0 < r ∧ x = (r : EReal)

theorem IsPos.isFin {x : EReal} (h : IsPos x) : IsFin x := by
  obtain ⟨r, _, rfl⟩ := h; exact ⟨r, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.max {x y : EReal} (hx : IsFin x) (hy : IsFin y) : IsFin (max x y) := by
  rcases max_choice x y with h | h <;> rw [h] <;> assumption

/-- A finite sum of reals, taken in the extended reals, is the real sum. -/
theorem sum_coe {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

theorem IsFin.sum {ι : Type*} [Fintype ι] {f : ι → EReal} (h : ∀ i, IsFin (f i)) : IsFin (∑ i, f i) := by
  choose g hg using h
  exact ⟨∑ i, g i, by rw [← sum_coe]; exact Finset.sum_congr rfl (fun i _ => hg i)⟩

theorem IsPos.sum {ι : Type*} [Fintype ι] [Nonempty ι] {f : ι → EReal} (h : ∀ i, IsPos (f i)) :
    IsPos (∑ i, f i) := by
  choose g hg0 hg using h
  exact ⟨∑ i, g i, Finset.sum_pos (fun i _ => hg0 i) Finset.univ_nonempty,
    by rw [← sum_coe]; exact Finset.sum_congr rfl (fun i _ => hg i)⟩

/-- The largest of a non-empty finite family of reals (folded from `-∞`) is a real; of an empty one it is `-∞`. -/
theorem fold_max_isFin {ι : Type*} [DecidableEq ι] (f : ι → EReal) (s : Finset ι) (h : ∀ i ∈ s, IsFin (f i)) :
    (s = ∅ ∧ s.fold max (⊥ : EReal) f = ⊥) ∨ IsFin (s.fold max (⊥ : EReal) f) := by
  induction s using Finset.induction_on with
  | empty => exact Or.inl ⟨rfl, Finset.fold_empty⟩
  | insert a s ha ih =>
    right
    rw [Finset.fold_insert ha]
    have hs : ∀ i ∈ s, IsFin (f i) := fun i hi => h i (Finset.mem_insert_of_mem hi)
    have hfa : IsFin (f a) := h a (Finset.mem_insert_self a s)
    rcases ih hs with ⟨_, h0⟩ | h1
    · rw [h0, max_eq_left bot_le]; exact hfa
    · exact hfa.max h1

/-! ### The literals -/

/-- A single-precision pattern whose exponent field is not all ones denotes a real. -/
theorem ieee_isFin (b : BitVec 32) (h : (b.extractLsb' 23 8).toNat ≠ 2 ^ 8 - 1) :
    IsFin (Ideal.ieee 8 23 b) := by
  unfold Ideal.ieee
  simp only []
  rw [if_neg h]
  split_ifs <;> exact ⟨_, rfl⟩

/-- A single-precision pattern with its sign bit clear and its exponent field neither zero nor all ones
    denotes a positive real: `(2^23 + fraction) · 2^k`. -/
theorem ieee_isPos (b : BitVec 32) (hs : (b.extractLsb' (8 + 23) 1 == 1#1) = false)
    (h : (b.extractLsb' 23 8).toNat ≠ 2 ^ 8 - 1) (h0 : (b.extractLsb' 23 8).toNat ≠ 0) :
    IsPos (Ideal.ieee 8 23 b) := by
  unfold Ideal.ieee
  simp only []
  rw [if_neg h, if_neg h0, hs]
  refine ⟨_, ?_, rfl⟩
  simp only [Bool.false_eq_true, if_false, one_mul]
  positivity

/-- The lower bound of the norm is a positive real. -/
theorem eps_isPos : IsPos (Ideal.ofBits .f32 0x2B8CBCCC#32) :=
  show IsPos (Ideal.ieee 8 23 (0x2B8CBCCC#32)) from ieee_isPos _ (by decide) (by decide) (by decide)

/-- The scale of the score is a real. -/
theorem lit_eighth_isFin : IsFin (Ideal.ofBits .f32 0x3E000000#32) :=
  show IsFin (Ideal.ieee 8 23 (0x3E000000#32)) from ieee_isFin _ (by decide)

/-- The value above the diagonal is a real. -/
theorem lit_lowest_isFin : IsFin (Ideal.ofBits .f32 0xFF7FFFFF#32) :=
  show IsFin (Ideal.ieee 8 23 (0xFF7FFFFF#32)) from ieee_isFin _ (by decide)

/-- The value on the diagonal is a real. -/
theorem lit_diag_isFin : IsFin (Ideal.ofBits .f32 0xC7435000#32) :=
  show IsFin (Ideal.ieee 8 23 (0xC7435000#32)) from ieee_isFin _ (by decide)

/-- The start of the row's maximum is `-∞`. -/
theorem lit_neg_inf : Ideal.ofBits .f32 0xFF800000#32 = (⊥ : EReal) := by
  simp [Ideal.ofBits, Ideal.ieee]

/-- The numerator of the reciprocal is `1`: `2^23 · 2^(-23)`. -/
theorem lit_one : Ideal.ofBits .f32 0x3F800000#32 = (1 : EReal) := by
  simp [Ideal.ofBits, Ideal.ieee]
  norm_cast
  norm_num

/-! ### Every stage is a real -/

section Stages
variable (qk : A3) (hfin : ∀ b j e, IsFin (qk b j e))
include hfin

/-- The sum of squares of a row of reals is a real that is not negative. -/
theorem sumsq_real (b : Fin 4) (j : Fin 4096) : ∃ r : ℝ, 0 ≤ r ∧ sumsq qk b j = (r : EReal) := by
  choose g hg using hfin b j
  refine ⟨∑ e, g e * g e, Finset.sum_nonneg (fun e _ => mul_self_nonneg (g e)), ?_⟩
  unfold sumsq
  rw [← sum_coe]
  exact Finset.sum_congr rfl (fun e _ => by rw [hg e, EReal.coe_mul])

theorem nrm_isPos (b : Fin 4) (j : Fin 4096) : IsPos (nrm qk b j) := by
  obtain ⟨s, hs0, hs⟩ := sumsq_real qk hfin b j
  obtain ⟨e, he0, he⟩ := eps_isPos
  unfold nrm
  rw [hs, he, Ideal.sqrt_coe, if_neg (not_lt.mpr hs0)]
  refine ⟨max (Real.sqrt s) e, lt_max_of_lt_right he0, ?_⟩
  rcases le_total (Real.sqrt s) e with h | h
  · rw [max_eq_right h, max_eq_right (by exact_mod_cast h)]
  · rw [max_eq_left h, max_eq_left (by exact_mod_cast h)]

theorem kn_isFin (b : Fin 4) (j : Fin 4096) (e : Fin 64) : IsFin (kn qk b j e) := by
  obtain ⟨n, hn0, hn⟩ := nrm_isPos qk hfin b j
  unfold kn
  rw [hn, Ideal.div_coe (ne_of_gt hn0)]
  exact (hfin b j e).mul ⟨_, rfl⟩

theorem score_isFin (b : Fin 4) (i j : Fin 4096) : IsFin (score qk b i j) := by
  unfold score
  exact (IsFin.sum (fun e => (hfin b i e).mul (kn_isFin qk hfin b j e))).mul lit_eighth_isFin

theorem masked_isFin (b : Fin 4) (i j : Fin 4096) : IsFin (masked qk b i j) := by
  unfold masked
  split_ifs
  · exact lit_lowest_isFin
  · exact lit_diag_isFin
  · exact score_isFin qk hfin b i j

theorem rowmax_isFin (b : Fin 4) (i : Fin 4096) : IsFin (rowmax qk b i) := by
  unfold rowmax
  rw [lit_neg_inf]
  rcases fold_max_isFin (fun j => masked qk b i j) Finset.univ (fun j _ => masked_isFin qk hfin b i j) with ⟨h, _⟩ | h
  · exact absurd h (Finset.univ_nonempty (α := Fin 4096)).ne_empty
  · exact h

theorem pexp_isPos (b : Fin 4) (i j : Fin 4096) : IsPos (pexp qk b i j) := by
  obtain ⟨r, hr⟩ := (masked_isFin qk hfin b i j).sub (rowmax_isFin qk hfin b i)
  unfold pexp
  rw [hr, Ideal.exp_coe]
  exact ⟨Real.exp r, Real.exp_pos r, rfl⟩

theorem denom_isPos (b : Fin 4) (i : Fin 4096) : IsPos (denom qk b i) := by
  unfold denom
  exact IsPos.sum (fun j => pexp_isPos qk hfin b i j)

theorem denom_ne_zero (b : Fin 4) (i : Fin 4096) : denom qk b i ≠ 0 := by
  obtain ⟨r, hr0, hr⟩ := denom_isPos qk hfin b i
  rw [hr]
  exact_mod_cast ne_of_gt hr0

end Stages

/-- With every input entry a real, the reciprocal-first weight is the one-division weight. -/
theorem attnMul_eq_attnDiv (qk : A3) (hfin : ∀ b j e, ∃ r : ℝ, qk b j e = (r : EReal)) :
    attnMul qk = attnDiv qk := by
  funext b i j
  have hd : denom qk b i ≠ 0 := denom_ne_zero qk hfin b i
  unfold attnMul attnDiv
  rw [lit_one]
  unfold Ideal.div
  rw [if_neg hd, if_neg hd, one_mul]

end Cert.Attn

end
-- ==== Proof.Bridge.lean ====
/-
  The two programs' results are one function of the arguments.

  Index by index, the reference's attention weights are `pexp / denom` and the kernel's `pexp · (1 / denom)`, over the
  same masked scores; the two agree once the row sum `denom` is not zero, which holds when the first argument's entries
  are real numbers (then every masked score is real, so every exponential is a positive real). The second result is
  the same sum of those weights against the values on both sides.
-/
import proofs.«144197_j12713103196750_2_alg».proof.Proof.KernelBlocks
import proofs.«144197_j12713103196750_2_alg».proof.Proof.RefMasked
import proofs.«144197_j12713103196750_2_alg».proof.Proof.RefSoftmax
import proofs.«144197_j12713103196750_2_alg».proof.Proof.SoftmaxLaw

noncomputable section

namespace Cert.Bridge

open Idealize.ShloMosaic Idealize.ShloMosaic.ValueIdx Cert.Attn

/-- The reference's second result (the weights) is the kernel's. -/
theorem attn_eq (x0 : (⟨3, ![4, 4096, 64]⟩ : Shape).Idx → EReal) (hfin : ∀ i, ∃ r : ℝ, x0 i = (r : EReal)) :
    Cert.ReferenceIdeal.ReadP.val_main_v39 (F := Ideal) x0 = Cert.KernelIdeal.KVal.attnArr x0 := by
  funext i
  obtain ⟨b, p, q, rfl⟩ : ∃ (b : Fin 4) (p q : Fin 4096), i = ix3 b p q := ⟨i 0, i 1, i 2, eq_ix3 i⟩
  rw [Cert.ReferenceIdeal.RefSoftmax.ref_attn x0 (Cert.ReferenceIdeal.RefMasked.ref_masked x0) b p q,
    Cert.KernelIdeal.KVal.attnArr_eq x0 _ b p q rfl rfl rfl,
    attnMul_eq_attnDiv (arr3 x0) (fun b j e => hfin (ix3 b j e))]

/-- The reference's first result (the weights applied to the values) is the kernel's. -/
theorem out_eq (x0 x1 : (⟨3, ![4, 4096, 64]⟩ : Shape).Idx → EReal) (hfin : ∀ i, ∃ r : ℝ, x0 i = (r : EReal)) :
    Cert.ReferenceIdeal.ReadP.val_main_v40 (F := Ideal) x0 x1 = Cert.KernelIdeal.KVal.outArr x0 x1 := by
  funext i
  obtain ⟨b, p, e, rfl⟩ : ∃ (b : Fin 4) (p : Fin 4096) (e : Fin 64), i = ix3 b p e := ⟨i 0, i 1, i 2, eq_ix3 i⟩
  rw [Cert.ReferenceIdeal.RefSoftmax.ref_out x0 x1 (Cert.ReferenceIdeal.RefMasked.ref_masked x0) b p e,
    Cert.KernelIdeal.KVal.outArr_eq x0 x1 _ b p e rfl rfl rfl,
    attnMul_eq_attnDiv (arr3 x0) (fun b j e => hfin (ix3 b j e))]

end Cert.Bridge

end
-- ==== Proof.FiniteInputs.lean ====
/-
  From the certificate's precondition to "every entry of the first argument is a real".

  The precondition is the conjunction of two statements "every element `x` of the array has `|x| < +∞`",
  each a reduction by `and` over the whole array of the comparison words, from the word 1.  The
  conjunction being 1 makes each reduction 1, a reduction by `and` over all axes being 1 makes every
  comparison word 1, and `max x (-x) < ⊤` fails at both infinities, so `x` is a real.
-/
import proofs.«144197_j12713103196750_2_alg».proof.Pre_finite_inputs
import Idealize.ShloMosaic.Lib.ReduceAll
import Idealize.ShloMosaic.Lib.ValueIdx
import Idealize.ShloMosaic.Lib.IdealHost

noncomputable section

namespace Cert.Attn

open Idealize.ShloMosaic Idealize.ShloMosaic.ValueIdx
open Cert.Pre_finite_inputs

/-- The scalar shape has one index. -/
instance subsingleton_scalar_idx : Subsingleton S_.Idx := ⟨fun a b => funext fun d => d.elim0⟩

/-- The pattern `0x7F800000` is `+∞`. -/
theorem lit_pos_inf : Ideal.ofBits .f32 0x7F800000#32 = (⊤ : EReal) := by
  simp [Ideal.ofBits, Ideal.ieee]

/-- `|x| < +∞`, as a comparison word that is 1, makes `x` a real: at `⊥` and at `⊤` the larger of `x` and
    `-x` is `⊤`, which is not below `⊤`. -/
theorem real_of_abs_lt_top (x : EReal)
    (h : Ideal.cmp .olt (max x (-x)) (Ideal.ofBits .f32 0x7F800000#32) = 1#1) : ∃ r : ℝ, x = (r : EReal) := by
  rw [lit_pos_inf] at h
  induction x using EReal.rec with
  | bot => simp [Ideal.cmp] at h
  | coe r => exact ⟨r, rfl⟩
  | top => simp [Ideal.cmp] at h

/-- Under the precondition every entry of the first argument is a real. -/
theorem finite_of_pre [Cert.Pre_finite_inputs.Facts] (x0 x1 : FVec Ideal S4x4096x64 .f32)
    (h : Cert.Pre_finite_inputs.fn (F := Ideal) x0 x1 = (fun _ => 1#1)) :
    ∀ i, ∃ r : ℝ, x0 i = (r : EReal) := by
  intro i
  have h0 := congrFun h ValueIdx.ix0
  dsimp only [Cert.Pre_finite_inputs.fn] at h0
  have h1 := (IntOp.andi_eq_one.1 h0).1
  have h2 := Host.reduce_andi_all _ _ _ _ _ h1 i
  rw [cmpf_apply, broadcastInDim_scalar_apply, constant_apply] at h2
  exact real_of_abs_lt_top (x0 i) h2

end Cert.Attn

end
-- ==== Proof.lean ====
/-
  The certificate of a masked self-attention kernel against its jnp reference, over the extended reals.

  Both programs take `qk` and `v` of shape [4, 4096, 64]. Keys are the rows of `qk` divided by the larger of the row's
  norm and `1e-12`; the score of query row `i` against key row `j` is their dot product times 1/8; the diagonal is set to
  `-50000` and the strict upper triangle to the most negative finite float; each row goes through a softmax; the weights
  are one result and the weights applied to `v` the other. The kernel does this tile by tile over a 4 × 16 grid
  (Proof/KernelBlocks.lean: each result array after the run is one function of the arguments), the reference in 72 host
  operations (Proof/RefRunStaged.lean, Proof/RefMasked.lean, Proof/RefSoftmax.lean). The one place the two differ is the
  softmax's last step — the kernel multiplies by the reciprocal of the row sum, the reference divides by it — and there
  the precondition is used: with every entry of `qk` a real number the row sum is a positive real
  (Proof/SoftmaxLaw.lean), so the two spellings agree (Proof/Bridge.lean).

  The three frames are the programs' runs with the results dropped; the idealization rewrote nothing.
-/
import proofs.«144197_j12713103196750_2_alg».proof.Defs
import proofs.«144197_j12713103196750_2_alg».proof.Proof.Gen.Kernel
import proofs.«144197_j12713103196750_2_alg».proof.Proof.Gen.KernelIdeal
import proofs.«144197_j12713103196750_2_alg».proof.Proof.Gen.ReferenceIdeal
import proofs.«144197_j12713103196750_2_alg».proof.Proof.Gen.Pre_finite_inputs
import proofs.«144197_j12713103196750_2_alg».proof.Proof.FrameKernel
import proofs.«144197_j12713103196750_2_alg».proof.Proof.FrameKernelIdeal
import proofs.«144197_j12713103196750_2_alg».proof.Proof.RefRunStaged
import proofs.«144197_j12713103196750_2_alg».proof.Proof.Bridge
import proofs.«144197_j12713103196750_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => ⟨(h c).2.2.1, (h c).2.2.2⟩)
    (Cert.ReferenceIdeal.RefRunStaged.run (F := Ideal) m ρ)

/-- From memories that agree on the arguments both programs end with the same two arrays: the kernel's run leaves
    `outArr` and `attnArr` of its arguments, the reference's run leaves its stage functions of the same arguments, and
    those are equal where the first argument's entries are real numbers, which the precondition says. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.KVal.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.KVal.attnArr (m ((c.tc : Thread Cert.KernelIdeal.nD Cert.KernelIdeal.τ).loc Cert.KernelIdeal.main_arg0)),
    Cert.KernelIdeal.KVal.run m ρ, ?_⟩
  refine (θ_run Cert.ReferenceIdeal.defs _ _).mono (fun _ h c => ⟨(h c).1.trans ?_, (h c).2.1.trans ?_, (h c).2.2.1, (h c).2.2.2⟩)
    (Cert.ReferenceIdeal.RefRunStaged.run (F := Ideal) m' ρ')
  · rw [(hagree c).1, (hagree c).2]
    exact Cert.Bridge.out_eq _ _ (Cert.Attn.finite_of_pre _ _ (hpre c))
  · rw [(hagree c).1]
    exact Cert.Bridge.attn_eq _ (Cert.Attn.finite_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
